-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S600000 : Shape := ⟨1, ![600000]⟩
abbrev S30000 : Shape := ⟨1, ![30000]⟩
abbrev S3x896x128 : Shape := ⟨3, ![3, 896, 128]⟩
abbrev S3x128 : Shape := ⟨2, ![3, 128]⟩
abbrev S3x128x128 : Shape := ⟨3, ![3, 128, 128]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S3x896x128 : S_.BroadcastsInDim S3x896x128 (![] : Fin 0 → Fin S3x896x128.rank)
  reducesTo_S3x896x128_S_d0_1_2 : S3x896x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part1 {F : FTy → Type} [FloatOps F] (main_arg8 : FVec F S3x128x128 .f32) (main_arg9 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg8
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg9
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S30000x128 .f32) (main_arg1 : IVec S600000 32) (main_arg2 : IVec S600000 32) (main_arg3 : IVec S600000 32) (main_arg4 : FVec F S600000 .f32) (main_arg5 : IVec S30000 32) (main_arg6 : FVec F S3x896x128 .f32) (main_arg7 : FVec F S3x128 .f32) (main_arg8 : FVec F S3x128x128 .f32) (main_arg9 : FVec F S3x128 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S600000 .f32 := Host.absf main_arg4
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S3x896x128 .f32 := Host.absf main_arg6
  let main_cst_2 : FVec F S_ .f32 := constant S_ .f32 0x7F800000#32
  let main_v10 : FVec F S3x896x128 .f32 := broadcastInDim S3x896x128 ![] bcast_S_S3x896x128 main_cst_2
  let main_v11 : IVec S3x896x128 1 := cmpf .olt main_v9 main_v10
  let main_c_3 : IVec S_ 1 := constantI S_ 1 1#1
  let main_v12 : IVec S_ 1 := (fun x v => Host.reduce IntOp.andi x v reducesTo_S3x896x128_S_d0_1_2 h_S_) main_v11 main_c_3
  let main_v13 : IVec S_ 1 := andi main_v8 main_v12
  let main_v14 : FVec F S3x128 .f32 := Host.absf main_arg7
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg8 main_arg9 main_v13 main_v16
-- ==== Kernel.lean ====
abbrev S30000x128 : Shape := ⟨2, ![30000, 128]⟩
abbrev S600000 : Shape := ⟨1, ![600000]⟩
abbrev S30000 : Shape := ⟨1, ![30000]⟩
abbrev S3x896x128 : Shape := ⟨3, ![3, 896, 128]⟩
abbrev S3x128 : Shape := ⟨2, ![3, 128]⟩
abbrev S3x128x128 : Shape := ⟨3, ![3, 128, 128]⟩
abbrev S_ : Shape := ⟨0, ![]⟩
abbrev S600000x1 : Shape := ⟨2, ![600000, 1]⟩
abbrev S600000x128 : Shape := ⟨2, ![600000, 128]⟩
abbrev S210000x128 : Shape := ⟨2, ![210000, 128]⟩
abbrev S30000x896 : Shape := ⟨2, ![30000, 896]⟩
abbrev S1x128 : Shape := ⟨2, ![1, 128]⟩
abbrev S128 : Shape := ⟨1, ![128]⟩
abbrev S1x896x128 : Shape := ⟨3, ![1, 896, 128]⟩
abbrev S896x128 : Shape := ⟨2, ![896, 128]⟩
abbrev S1x128x128 : Shape := ⟨3, ![1, 128, 128]⟩
abbrev S128x128 : Shape := ⟨2, ![128, 128]⟩
abbrev S2000x896 : Shape := ⟨2, ![2000, 896]⟩
abbrev S2000x128 : Shape := ⟨2, ![2000, 128]⟩
abbrev S16x128 : Shape := ⟨2, ![16, 128]⟩
abbrev S30000x1 : Shape := ⟨2, ![30000, 1]⟩

abbrev nBuf : Space → Nat
  | .hbm => 100
  | .vmem => 30
  | .smem => 0
  | _ => 0

abbrev bufTy : (tb : Table) → Fin (tcTables nBuf tb) → BufTy
  | .hbm, ⟨0, _⟩ => ⟨S30000x128, .f32⟩
  | .hbm, ⟨1, _⟩ => ⟨S600000, .i32⟩
  | .hbm, ⟨2, _⟩ => ⟨S600000, .i32⟩
  | .hbm, ⟨3, _⟩ => ⟨S600000, .i32⟩
  | .hbm, ⟨4, _⟩ => ⟨S600000, .f32⟩
  | .hbm, ⟨5, _⟩ => ⟨S30000, .i32⟩
  | .hbm, ⟨6, _⟩ => ⟨S3x896x128, .f32⟩
  | .hbm, ⟨7, _⟩ => ⟨S3x128, .f32⟩
  | .hbm, ⟨8, _⟩ => ⟨S3x128x128, .f32⟩
  | .hbm, ⟨9, _⟩ => ⟨S3x128, .f32⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S600000x128, .f32⟩
  | .hbm, ⟨25, _⟩ => ⟨S600000x128, .f32⟩
  | .hbm, ⟨26, _⟩ => ⟨S_, .f32⟩
  | .hbm, ⟨27, _⟩ => ⟨S210000x128, .f32⟩
  | .hbm, ⟨28, _⟩ => ⟨S600000x1, .i32⟩
  | .hbm, ⟨29, _⟩ => ⟨S210000x128, .f32⟩
  | .hbm, ⟨30, _⟩ => ⟨S30000x896, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S1x896x128, .f32⟩
  | .hbm, ⟨38, _⟩ => ⟨S896x128, .f32⟩
  | .hbm, ⟨39, _⟩ => ⟨S1x128x128, .f32⟩
  | .hbm, ⟨40, _⟩ => ⟨S128x128, .f32⟩
  | .hbm, ⟨41, _⟩ => ⟨S30000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S210000x128, .f32⟩
  | .hbm, ⟨55, _⟩ => ⟨S600000x1, .i32⟩
  | .hbm, ⟨56, _⟩ => ⟨S210000x128, .f32⟩
  | .hbm, ⟨57, _⟩ => ⟨S30000x896, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S1x896x128, .f32⟩
  | .hbm, ⟨65, _⟩ => ⟨S896x128, .f32⟩
  | .hbm, ⟨66, _⟩ => ⟨S1x128x128, .f32⟩
  | .hbm, ⟨67, _⟩ => ⟨S128x128, .f32⟩
  | .hbm, ⟨68, _⟩ => ⟨S30000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S210000x128, .f32⟩
  | .hbm, ⟨82, _⟩ => ⟨S600000x1, .i32⟩
  | .hbm, ⟨83, _⟩ => ⟨S210000x128, .f32⟩
  | .hbm, ⟨84, _⟩ => ⟨S30000x896, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x896x128, .f32⟩
  | .hbm, ⟨92, _⟩ => ⟨S896x128, .f32⟩
  | .hbm, ⟨93, _⟩ => ⟨S1x128x128, .f32⟩
  | .hbm, ⟨94, _⟩ => ⟨S128x128, .f32⟩
  | .hbm, ⟨95, _⟩ => ⟨S30000x128, .f32⟩
  | .hbm, ⟨96, _⟩ => ⟨S_, .f32⟩
  | .hbm, ⟨97, _⟩ => ⟨S16x128, .f32⟩
  | .hbm, ⟨98, _⟩ => ⟨S30000x1, .i32⟩
  | .hbm, ⟨99, _⟩ => ⟨S16x128, .f32⟩
  | .local _ .vmem, ⟨0, _⟩ => ⟨S2000x896, .f32⟩
  | .local _ .vmem, ⟨1, _⟩ => ⟨S2000x896, .f32⟩
  | .local _ .vmem, ⟨2, _⟩ => ⟨S2000x128, .f32⟩
  | .local _ .vmem, ⟨3, _⟩ => ⟨S2000x128, .f32⟩
  | .local _ .vmem, ⟨4, _⟩ => ⟨S896x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x896, .f32⟩
  | .local _ .vmem, ⟨11, _⟩ => ⟨S2000x896, .f32⟩
  | .local _ .vmem, ⟨12, _⟩ => ⟨S2000x128, .f32⟩
  | .local _ .vmem, ⟨13, _⟩ => ⟨S2000x128, .f32⟩
  | .local _ .vmem, ⟨14, _⟩ => ⟨S896x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x896, .f32⟩
  | .local _ .vmem, ⟨21, _⟩ => ⟨S2000x896, .f32⟩
  | .local _ .vmem, ⟨22, _⟩ => ⟨S2000x128, .f32⟩
  | .local _ .vmem, ⟨23, _⟩ => ⟨S2000x128, .f32⟩
  | .local _ .vmem, ⟨24, _⟩ => ⟨S896x128, .f32⟩
  | .local _ .vmem, ⟨25, _⟩ => ⟨S128x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_5 : Ref sig .tc := ⟨.hbm, 69, rfl⟩
abbrev main_v52 : Ref sig .tc := ⟨.hbm, 70, rfl⟩
abbrev main_v53 : Ref sig .tc := ⟨.hbm, 71, rfl⟩
abbrev main_c_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x896 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S896x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x896 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S896x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S210000x128 : S_.BroadcastsInDim S210000x128 (![] : Fin 0 → Fin S210000x128.rank)
  shapeCasts_S210000x128_S30000x896 : S210000x128.ShapeCasts S30000x896
  slices_S3x128_S1x128_0_0 : S3x128.Slices ![0, 0] S1x128
  shapeCasts_S1x128_S128 : S1x128.ShapeCasts S128
  shapeCasts_S128_S1x128 : S128.ShapeCasts S1x128
  slices_S3x896x128_S1x896x128_0_0_0 : S3x896x128.Slices ![0, 0, 0] S1x896x128
  shapeCasts_S1x896x128_S896x128 : S1x896x128.ShapeCasts S896x128
  slices_S3x128x128_S1x128x128_0_0_0 : S3x128x128.Slices ![0, 0, 0] S1x128x128
  shapeCasts_S1x128x128_S128x128 : S1x128x128.ShapeCasts S128x128
  inb_S2000x896_S2000x896_0_0 : ∀ a, (![0, 0] : Fin 2 → Nat) a + S2000x896.size a ≤ S2000x896.size a
  h_S2000x896 : 0 < S2000x896.numel
  shapeCasts_S2000x896_S2000x896 : S2000x896.ShapeCasts S2000x896
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S896x128_S896x128_0_0 : ∀ a, (![0, 0] : Fin 2 → Nat) a + S896x128.size a ≤ S896x128.size a
  h_S896x128 : 0 < S896x128.numel
  shapeCasts_S896x128_S896x128 : S896x128.ShapeCasts S896x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128_S1x128_1_0 : S3x128.Slices ![1, 0] S1x128
  slices_S3x896x128_S1x896x128_1_0_0 : S3x896x128.Slices ![1, 0, 0] S1x896x128
  slices_S3x128x128_S1x128x128_1_0_0 : S3x128x128.Slices ![1, 0, 0] S1x128x128
  shapeCasts_S2000x128_S2000x128 : S2000x128.ShapeCasts S2000x128
  slices_S3x128_S1x128_2_0 : S3x128.Slices ![2, 0] S1x128
  slices_S3x896x128_S1x896x128_2_0_0 : S3x896x128.Slices ![2, 0, 0] S1x896x128
  slices_S3x128x128_S1x128x128_2_0_0 : S3x128x128.Slices ![2, 0, 0] S1x128x128
  bcast_S_S16x128 : S_.BroadcastsInDim S16x128 (![] : Fin 0 → Fin S16x128.rank)
  bcast_S30000_S30000x1_0 : S30000.BroadcastsInDim S30000x1 (![0] : Fin 1 → Fin S30000x1.rank)
  gather_S30000x128_S600000x1_S600000x128_1_0_n_n_0_1_1128_wf : GatherDims.WF S30000x128 S600000x1 S600000x128 [1] [0] [] [0] [] 1 ![1, 128]
  scatter_S210000x128_S600000x1_S600000x128_1_0_0_1_wf : ScatterDims.WF S210000x128 S600000x1 S600000x128 [1] [0] [0] 1
  dot_S2000x896_S896x128_S2000x128_1_0_0_1_n_n_wf : DotDims.WF S2000x896 S896x128 S2000x128 [1] [0] [0] [1] [] []
  dot_S2000x128_S128x128_S2000x128_1_0_0_1_n_n_wf : DotDims.WF S2000x128 S128x128 S2000x128 [1] [0] [0] [1] [] []
  scatter_S16x128_S30000x1_S30000x128_1_0_0_1_wf : ScatterDims.WF S16x128 S30000x1 S30000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x896.size a ≤ S30000x896.size a
  hwx0_0 : ∀ i : grid0.Coords, EltTy.bits .f32 = 32 ∨ (Rect.block (s := S30000x896) S2000x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S30000x128.size a
  hwx0_1 : ∀ i : grid0.Coords, EltTy.bits .f32 = 32 ∨ (Rect.block (s := S30000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x128.size a ≤ S896x128.size a
  hwx0_2 : ∀ i : grid0.Coords, EltTy.bits .f32 = 32 ∨ (Rect.block (s := S896x128) S896x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S30000x128.size a
  hwx0_6 : ∀ i : grid0.Coords, EltTy.bits .f32 = 32 ∨ (Rect.block (s := S30000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x896.size a ≤ S30000x896.size a
  hwx1_0 : ∀ i : grid1.Coords, EltTy.bits .f32 = 32 ∨ (Rect.block (s := S30000x896) S2000x896.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S30000x128.size a
  hwx1_1 : ∀ i : grid1.Coords, EltTy.bits .f32 = 32 ∨ (Rect.block (s := S30000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S896x128.size a ≤ S896x128.size a
  hwx1_2 : ∀ i : grid1.Coords, EltTy.bits .f32 = 32 ∨ (Rect.block (s := S896x128) S896x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S30000x128.size a
  hwx1_6 : ∀ i : grid1.Coords, EltTy.bits .f32 = 32 ∨ (Rect.block (s := S30000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x896.size a ≤ S30000x896.size a
  hwx2_0 : ∀ i : grid2.Coords, EltTy.bits .f32 = 32 ∨ (Rect.block (s := S30000x896) S2000x896.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S30000x128.size a
  hwx2_1 : ∀ i : grid2.Coords, EltTy.bits .f32 = 32 ∨ (Rect.block (s := S30000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S896x128.size a ≤ S896x128.size a
  hwx2_2 : ∀ i : grid2.Coords, EltTy.bits .f32 = 32 ∨ (Rect.block (s := S896x128) S896x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S30000x128.size a
  hwx2_6 : ∀ i : grid2.Coords, EltTy.bits .f32 = 32 ∨ (Rect.block (s := S30000x128) S2000x128.size (cc2_transform_6 i) (hinb2_6 i)).WholeWords (EltTy.packing .f32)

variable [Facts₀]

def gather_S30000x128_S600000x1_S600000x128_1_0_n_n_0_1_1128 : GatherDims S30000x128 S600000x1 S600000x128 where
  offsetDims := [1]
  collapsedSliceDims := [0]
  operandBatchingDims := []
  startIndicesBatchingDims := []
  startIndexMap := [0]
  indexVectorDim := 1
  sliceSizes := ![1, 128]
  wf := gather_S30000x128_S600000x1_S600000x128_1_0_n_n_0_1_1128_wf
def scatter_S210000x128_S600000x1_S600000x128_1_0_0_1 : ScatterDims S210000x128 S600000x1 S600000x128 where
  updateWindowDims := [1]
  insertedWindowDims := [0]
  scatterDimsToOperandDims := [0]
  indexVectorDim := 1
  wf := scatter_S210000x128_S600000x1_S600000x128_1_0_0_1_wf
def dot_S2000x896_S896x128_S2000x128_1_0_0_1_n_n : DotDims S2000x896 S896x128 S2000x128 where
  lhsContracting := [1]
  rhsContracting := [0]
  lhsNonContracting := [0]
  rhsNonContracting := [1]
  lhsBatch := []
  rhsBatch := []
  wf := dot_S2000x896_S896x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S16x128_S30000x1_S30000x128_1_0_0_1 : ScatterDims S16x128 S30000x1 S30000x128 where
  updateWindowDims := [1]
  insertedWindowDims := [0]
  scatterDimsToOperandDims := [0]
  indexVectorDim := 1
  wf := scatter_S16x128_S30000x1_S30000x128_1_0_0_1_wf

abbrev win0_0 : Pipeline.Window sig grid0 :=
  Pipeline.Window.ofSpec (Memref.whole main_v16) S2000x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S896x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S2000x896.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S896x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S2000x896.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S896x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v75) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S30000x128 : Shape := ⟨2, ![30000, 128]⟩
abbrev S600000 : Shape := ⟨1, ![600000]⟩
abbrev S30000 : Shape := ⟨1, ![30000]⟩
abbrev S3x896x128 : Shape := ⟨3, ![3, 896, 128]⟩
abbrev S3x128 : Shape := ⟨2, ![3, 128]⟩
abbrev S3x128x128 : Shape := ⟨3, ![3, 128, 128]⟩
abbrev S_ : Shape := ⟨0, ![]⟩
abbrev S600000x1 : Shape := ⟨2, ![600000, 1]⟩
abbrev S600000x128 : Shape := ⟨2, ![600000, 128]⟩
abbrev S210000x128 : Shape := ⟨2, ![210000, 128]⟩
abbrev S30000x896 : Shape := ⟨2, ![30000, 896]⟩
abbrev S1x896x128 : Shape := ⟨3, ![1, 896, 128]⟩
abbrev S896x128 : Shape := ⟨2, ![896, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S16x128 : Shape := ⟨2, ![16, 128]⟩
abbrev S30000x1 : Shape := ⟨2, ![30000, 1]⟩

abbrev nBuf : Space → Nat
  | .hbm => 127
  | .vmem => 0
  | .smem => 0
  | _ => 0

abbrev bufTy : (tb : Table) → Fin (tcTables nBuf tb) → BufTy
  | .hbm, ⟨0, _⟩ => ⟨S30000x128, .f32⟩
  | .hbm, ⟨1, _⟩ => ⟨S600000, .i32⟩
  | .hbm, ⟨2, _⟩ => ⟨S600000, .i32⟩
  | .hbm, ⟨3, _⟩ => ⟨S600000, .i32⟩
  | .hbm, ⟨4, _⟩ => ⟨S600000, .f32⟩
  | .hbm, ⟨5, _⟩ => ⟨S30000, .i32⟩
  | .hbm, ⟨6, _⟩ => ⟨S3x896x128, .f32⟩
  | .hbm, ⟨7, _⟩ => ⟨S3x128, .f32⟩
  | .hbm, ⟨8, _⟩ => ⟨S3x128x128, .f32⟩
  | .hbm, ⟨9, _⟩ => ⟨S3x128, .f32⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S600000x128, .f32⟩
  | .hbm, ⟨25, _⟩ => ⟨S600000x128, .f32⟩
  | .hbm, ⟨26, _⟩ => ⟨S_, .f32⟩
  | .hbm, ⟨27, _⟩ => ⟨S210000x128, .f32⟩
  | .hbm, ⟨28, _⟩ => ⟨S600000x1, .i32⟩
  | .hbm, ⟨29, _⟩ => ⟨S210000x128, .f32⟩
  | .hbm, ⟨30, _⟩ => ⟨S30000x896, .f32⟩
  | .hbm, ⟨31, _⟩ => ⟨S1x896x128, .f32⟩
  | .hbm, ⟨32, _⟩ => ⟨S896x128, .f32⟩
  | .hbm, ⟨33, _⟩ => ⟨S30000x128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S30000x128, .f32⟩
  | .hbm, ⟨38, _⟩ => ⟨S30000x128, .f32⟩
  | .hbm, ⟨39, _⟩ => ⟨S1x128x128, .f32⟩
  | .hbm, ⟨40, _⟩ => ⟨S128x128, .f32⟩
  | .hbm, ⟨41, _⟩ => ⟨S30000x128, .f32⟩
  | .hbm, ⟨42, _⟩ => ⟨S30000x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S30000x128, .f32⟩
  | .hbm, ⟨47, _⟩ => ⟨S30000x128, .f32⟩
  | .hbm, ⟨48, _⟩ => ⟨S_, .f32⟩
  | .hbm, ⟨49, _⟩ => ⟨S30000x128, .f32⟩
  | .hbm, ⟨50, _⟩ => ⟨S30000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S210000x128, .f32⟩
  | .hbm, ⟨64, _⟩ => ⟨S600000x1, .i32⟩
  | .hbm, ⟨65, _⟩ => ⟨S210000x128, .f32⟩
  | .hbm, ⟨66, _⟩ => ⟨S30000x896, .f32⟩
  | .hbm, ⟨67, _⟩ => ⟨S1x896x128, .f32⟩
  | .hbm, ⟨68, _⟩ => ⟨S896x128, .f32⟩
  | .hbm, ⟨69, _⟩ => ⟨S30000x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S30000x128, .f32⟩
  | .hbm, ⟨74, _⟩ => ⟨S30000x128, .f32⟩
  | .hbm, ⟨75, _⟩ => ⟨S1x128x128, .f32⟩
  | .hbm, ⟨76, _⟩ => ⟨S128x128, .f32⟩
  | .hbm, ⟨77, _⟩ => ⟨S30000x128, .f32⟩
  | .hbm, ⟨78, _⟩ => ⟨S30000x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S30000x128, .f32⟩
  | .hbm, ⟨83, _⟩ => ⟨S30000x128, .f32⟩
  | .hbm, ⟨84, _⟩ => ⟨S_, .f32⟩
  | .hbm, ⟨85, _⟩ => ⟨S30000x128, .f32⟩
  | .hbm, ⟨86, _⟩ => ⟨S30000x128, .f32⟩
  | .hbm, ⟨87, _⟩ => ⟨S_, .i32⟩
  | .hbm, ⟨88, _⟩ => ⟨S600000, .i32⟩
  | .hbm, ⟨89, _⟩ => ⟨S600000, .i1⟩
  | .hbm, ⟨90, _⟩ => ⟨S_, .i32⟩
  | .hbm, ⟨91, _⟩ => ⟨S600000, .i32⟩
  | .hbm, ⟨92, _⟩ => ⟨S600000, .i32⟩
  | .hbm, ⟨93, _⟩ => ⟨S600000, .i32⟩
  | .hbm, ⟨94, _⟩ => ⟨S600000x1, .i32⟩
  | .hbm, ⟨95, _⟩ => ⟨S600000x128, .f32⟩
  | .hbm, ⟨96, _⟩ => ⟨S600000x128, .f32⟩
  | .hbm, ⟨97, _⟩ => ⟨S600000x128, .f32⟩
  | .hbm, ⟨98, _⟩ => ⟨S_, .f32⟩
  | .hbm, ⟨99, _⟩ => ⟨S210000x128, .f32⟩
  | .hbm, ⟨100, _⟩ => ⟨S600000x1, .i32⟩
  | .hbm, ⟨101, _⟩ => ⟨S210000x128, .f32⟩
  | .hbm, ⟨102, _⟩ => ⟨S30000x896, .f32⟩
  | .hbm, ⟨103, _⟩ => ⟨S1x896x128, .f32⟩
  | .hbm, ⟨104, _⟩ => ⟨S896x128, .f32⟩
  | .hbm, ⟨105, _⟩ => ⟨S30000x128, .f32⟩
  | .hbm, ⟨106, _⟩ => ⟨S1x128, .f32⟩
  | .hbm, ⟨107, _⟩ => ⟨S128, .f32⟩
  | .hbm, ⟨108, _⟩ => ⟨S1x128, .f32⟩
  | .hbm, ⟨109, _⟩ => ⟨S30000x128, .f32⟩
  | .hbm, ⟨110, _⟩ => ⟨S30000x128, .f32⟩
  | .hbm, ⟨111, _⟩ => ⟨S1x128x128, .f32⟩
  | .hbm, ⟨112, _⟩ => ⟨S128x128, .f32⟩
  | .hbm, ⟨113, _⟩ => ⟨S30000x128, .f32⟩
  | .hbm, ⟨114, _⟩ => ⟨S30000x128, .f32⟩
  | .hbm, ⟨115, _⟩ => ⟨S1x128, .f32⟩
  | .hbm, ⟨116, _⟩ => ⟨S128, .f32⟩
  | .hbm, ⟨117, _⟩ => ⟨S1x128, .f32⟩
  | .hbm, ⟨118, _⟩ => ⟨S30000x128, .f32⟩
  | .hbm, ⟨119, _⟩ => ⟨S30000x128, .f32⟩
  | .hbm, ⟨120, _⟩ => ⟨S_, .f32⟩
  | .hbm, ⟨121, _⟩ => ⟨S30000x128, .f32⟩
  | .hbm, ⟨122, _⟩ => ⟨S30000x128, .f32⟩
  | .hbm, ⟨123, _⟩ => ⟨S_, .f32⟩
  | .hbm, ⟨124, _⟩ => ⟨S16x128, .f32⟩
  | .hbm, ⟨125, _⟩ => ⟨S30000x1, .i32⟩
  | .hbm, ⟨126, _⟩ => ⟨S16x128, .f32⟩
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_cst : Ref sig .tc := ⟨.hbm, 48, rfl⟩
abbrev main_call0_v0 : Ref sig .tc := ⟨.hbm, 49, rfl⟩
abbrev main_v34 : Ref sig .tc := ⟨.hbm, 50, rfl⟩
abbrev main_c_2 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call1_cst : Ref sig .tc := ⟨.hbm, 84, rfl⟩
abbrev main_call1_v0 : Ref sig .tc := ⟨.hbm, 85, rfl⟩
abbrev main_v65 : Ref sig .tc := ⟨.hbm, 86, rfl⟩
abbrev main_c_5 : Ref sig .tc := ⟨.hbm, 87, rfl⟩
abbrev main_v66 : Ref sig .tc := ⟨.hbm, 88, rfl⟩
abbrev main_v67 : Ref sig .tc := ⟨.hbm, 89, rfl⟩
abbrev main_c_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_7 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_call2_cst : Ref sig .tc := ⟨.hbm, 120, rfl⟩
abbrev main_call2_v0 : Ref sig .tc := ⟨.hbm, 121, rfl⟩
abbrev main_v96 : Ref sig .tc := ⟨.hbm, 122, rfl⟩
abbrev main_cst_8 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S210000x128 : S_.BroadcastsInDim S210000x128 (![] : Fin 0 → Fin S210000x128.rank)
  shapeCasts_S210000x128_S30000x896 : S210000x128.ShapeCasts S30000x896
  slices_S3x896x128_S1x896x128_0_0_0 : S3x896x128.Slices ![0, 0, 0] S1x896x128
  shapeCasts_S1x896x128_S896x128 : S1x896x128.ShapeCasts S896x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  slices_S3x128x128_S1x128x128_0_0_0 : S3x128x128.Slices ![0, 0, 0] S1x128x128
  shapeCasts_S1x128x128_S128x128 : S1x128x128.ShapeCasts S128x128
  bcast_S_S30000x128 : S_.BroadcastsInDim S30000x128 (![] : Fin 0 → Fin S30000x128.rank)
  slices_S3x896x128_S1x896x128_1_0_0 : S3x896x128.Slices ![1, 0, 0] S1x896x128
  slices_S3x128_S1x128_1_0 : S3x128.Slices ![1, 0] S1x128
  slices_S3x128x128_S1x128x128_1_0_0 : S3x128x128.Slices ![1, 0, 0] S1x128x128
  slices_S3x896x128_S1x896x128_2_0_0 : S3x896x128.Slices ![2, 0, 0] S1x896x128
  slices_S3x128_S1x128_2_0 : S3x128.Slices ![2, 0] S1x128
  slices_S3x128x128_S1x128x128_2_0_0 : S3x128x128.Slices ![2, 0, 0] S1x128x128
  bcast_S_S16x128 : S_.BroadcastsInDim S16x128 (![] : Fin 0 → Fin S16x128.rank)
  bcast_S30000_S30000x1_0 : S30000.BroadcastsInDim S30000x1 (![0] : Fin 1 → Fin S30000x1.rank)
  gather_S30000x128_S600000x1_S600000x128_1_0_n_n_0_1_1128_wf : GatherDims.WF S30000x128 S600000x1 S600000x128 [1] [0] [] [0] [] 1 ![1, 128]
  scatter_S210000x128_S600000x1_S600000x128_1_0_0_1_wf : ScatterDims.WF S210000x128 S600000x1 S600000x128 [1] [0] [0] 1
  dot_S30000x896_S896x128_S30000x128_1_0_0_1_n_n_wf : DotDims.WF S30000x896 S896x128 S30000x128 [1] [0] [0] [1] [] []
  dot_S30000x128_S128x128_S30000x128_1_0_0_1_n_n_wf : DotDims.WF S30000x128 S128x128 S30000x128 [1] [0] [0] [1] [] []
  scatter_S16x128_S30000x1_S30000x128_1_0_0_1_wf : ScatterDims.WF S16x128 S30000x1 S30000x128 [1] [0] [0] 1

variable [Facts₀]

def gather_S30000x128_S600000x1_S600000x128_1_0_n_n_0_1_1128 : GatherDims S30000x128 S600000x1 S600000x128 where
  offsetDims := [1]
  collapsedSliceDims := [0]
  operandBatchingDims := []
  startIndicesBatchingDims := []
  startIndexMap := [0]
  indexVectorDim := 1
  sliceSizes := ![1, 128]
  wf := gather_S30000x128_S600000x1_S600000x128_1_0_n_n_0_1_1128_wf
def scatter_S210000x128_S600000x1_S600000x128_1_0_0_1 : ScatterDims S210000x128 S600000x1 S600000x128 where
  updateWindowDims := [1]
  insertedWindowDims := [0]
  scatterDimsToOperandDims := [0]
  indexVectorDim := 1
  wf := scatter_S210000x128_S600000x1_S600000x128_1_0_0_1_wf
def dot_S30000x896_S896x128_S30000x128_1_0_0_1_n_n : DotDims S30000x896 S896x128 S30000x128 where
  lhsContracting := [1]
  rhsContracting := [0]
  lhsNonContracting := [0]
  rhsNonContracting := [1]
  lhsBatch := []
  rhsBatch := []
  wf := dot_S30000x896_S896x128_S30000x128_1_0_0_1_n_n_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def scatter_S16x128_S30000x1_S30000x128_1_0_0_1 : ScatterDims S16x128 S30000x1 S30000x128 where
  updateWindowDims := [1]
  insertedWindowDims := [0]
  scatterDimsToOperandDims := [0]
  indexVectorDim := 1
  wf := scatter_S16x128_S30000x1_S30000x128_1_0_0_1_wf

class Facts : Prop extends Facts₀ where

variable [Facts]
-- ==== Proof.KernelRun.lean ====
/-
  The idealized kernel's run with every buffer named.

  The generated frame proves that the three launches and the four stretches of host operations between them run to the
  end and leave the argument arrays alone; the same launch read at ALL unscoped buffers says that every buffer of the
  device ends at the fold `W7`: the host operations of each stretch applied to what the previous launch left, each launch
  replacing its output array by what its pipeline wrote back and keeping every other buffer.
-/
import proofs.«118090_j45775761441170_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every unscoped buffer of every device then holds what the
    fold through the program's segments says (`W7`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The same run read at the two result buffers and the ten argument buffers. -/
theorem run_results : θ_run defs (onTc (τ := τ) (main (F := F))) ⟨m, fun _ => 0, ρ⟩ (fun r => ∀ c : Dev nD,
      r.2.mem ((c.tc : Thread nD τ).loc main_v78) = W7 m ρ c (Proc.devRef .tc main_v78)
      ∧ r.2.mem ((c.tc : Thread nD τ).loc main_v75) = W7 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v78 (by decide)),
       h c _ (mem_uc main_v75 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)
    (run_all m ρ)

end Cert.KernelIdeal.Named

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LayerSpec.lean ====
/-
  One dense layer of the network as a function of whole arrays, entry by entry, over the extended reals.

  With `u` the aggregated messages (30000 × 896), `h` the node features (30000 × 128), `wr` (896 × 128) and `wl` (128 × 128)
  the two weight matrices and `b1`, `b2` the two bias rows (1 × 128), the layer's output at node `r` and feature `c` is

      max (Σ_k u[r,k]·wr[k,c] + Σ_k h[r,k]·wl[k,c] + b1[0,c] + b2[0,c], 0).

  Addition of extended reals is commutative and associative without any finiteness assumption, so the order in which the two
  products and the two biases are added does not matter (`entry_swap`).
-/
import Idealize.ShloMosaic.PureOps.Ideal.Laws
import Idealize.ShloMosaic.Lib.ValueIdx

noncomputable section

namespace Cert.Layer

open Idealize.ShloMosaic Idealize.ShloMosaic.ValueIdx

abbrev SU : Shape := ⟨2, ![30000, 896]⟩
abbrev SH : Shape := ⟨2, ![30000, 128]⟩
abbrev SWr : Shape := ⟨2, ![896, 128]⟩
abbrev SWl : Shape := ⟨2, ![128, 128]⟩
abbrev SB : Shape := ⟨2, ![1, 128]⟩

/-- One output entry from the two contracted sums and the two bias entries: the relational product, plus the self-loop
    product, plus the two biases, clamped below at zero. -/
def entry (A B b1 b2 : EReal) : EReal := max (((A + B) + b1) + b2) (Ideal.ofBits .f32 0x00000000#32)

/-- The same entry with the first bias added before the self-loop product. -/
theorem entry_swap (A B b1 b2 : EReal) :
    max (((A + b1) + B) + b2) (Ideal.ofBits .f32 0x00000000#32) = entry A B b1 b2 := by
  unfold entry
  rw [add_right_comm A b1 B]

/-- The layer's output array. -/
def layer (u : SU.Idx → EReal) (h : SH.Idx → EReal) (wr : SWr.Idx → EReal) (wl : SWl.Idx → EReal)
    (b1 b2 : SB.Idx → EReal) : SH.Idx → EReal := fun i =>
  entry (∑ k : Fin 896, u (ix2 (⟨(i 0).val, idx2_lt0 i⟩ : Fin 30000) k) * wr (ix2 k (⟨(i 1).val, idx2_lt1 i⟩ : Fin 128)))
    (∑ k : Fin 128, h (ix2 (⟨(i 0).val, idx2_lt0 i⟩ : Fin 30000) k) * wl (ix2 k (⟨(i 1).val, idx2_lt1 i⟩ : Fin 128)))
    (b1 (ix2 (0 : Fin 1) (⟨(i 1).val, idx2_lt1 i⟩ : Fin 128))) (b2 (ix2 (0 : Fin 1) (⟨(i 1).val, idx2_lt1 i⟩ : Fin 128)))

/-- The layer at an entry given by its node and feature. -/
theorem layer_ix2 (u : SU.Idx → EReal) (h : SH.Idx → EReal) (wr : SWr.Idx → EReal) (wl : SWl.Idx → EReal)
    (b1 b2 : SB.Idx → EReal) (r : Fin 30000) (c : Fin 128) :
    layer u h wr wl b1 b2 (ix2 r c)
      = entry (∑ k : Fin 896, u (ix2 r k) * wr (ix2 k c)) (∑ k : Fin 128, h (ix2 r k) * wl (ix2 k c))
          (b1 (ix2 (0 : Fin 1) c)) (b2 (ix2 (0 : Fin 1) c)) := rfl

end Cert.Layer

end
-- ==== Proof.Payload0.lean ====
/-
  What launch 0's body stores, read at one entry of its 2000 × 128 output block: from the block's rows of the aggregated
  messages and of the node features, the two weight matrices and the two bias rows, the layer's entry — the two matrix
  products as sums over the contracted coordinate (a change of float format is the identity over the extended reals), the
  bias rows spread over the block's rows.
-/
import proofs.«118090_j45775761441170_1_alg».proof.Proof.Gen.KernelIdeal.Skeleton
import proofs.«118090_j45775761441170_1_alg».proof.Proof.LibPlainDot
import proofs.«118090_j45775761441170_1_alg».proof.Proof.LayerSpec
import Idealize.ShloMosaic.Lib.Pipeline.Value
import Idealize.ShloMosaic.Lib.ValueLayout

noncomputable section

namespace Cert.KernelIdeal.Pay0

open Cert.KernelIdeal Cert.KernelIdeal.Gen
open Idealize.ShloMosaic Idealize.ShloMosaic.ValueIdx

theorem dotWr_eq : dot_S2000x896_S896x128_S2000x128_1_0_0_1_n_n = DotDims.plain 2000 896 128 := rfl
theorem dotWl_eq : dot_S2000x128_S128x128_S2000x128_1_0_0_1_n_n = DotDims.plain 2000 128 128 := rfl

/-- The stored value at row `p` and feature `q` of the block. -/
theorem pay_apply (x0 : Vec Ideal S2000x896 .f32) (x1 : Vec Ideal S2000x128 .f32) (x2 : Vec Ideal S896x128 .f32)
    (x3 : Vec Ideal S128x128 .f32) (x4 x5 : Vec Ideal S1x128 .f32) (p : Fin 2000) (q : Fin 128) :
    k0_pay1 (F := Ideal) x0 x1 x2 x3 x4 x5 (ix2 p q)
      = Cert.Layer.entry (∑ k : Fin 896, x0 (ix2 p k) * x2 (ix2 k q)) (∑ k : Fin 128, x1 (ix2 p k) * x3 (ix2 k q))
          (x4 (ix2 (0 : Fin 1) q)) (x5 (ix2 (0 : Fin 1) q)) := by
  unfold k0_pay1 Cert.Layer.entry
  simp only [shapeCast_self]
  refine (maximumf_apply _ _ _).trans (congrArg₂ max ?_ rfl)
  refine (addf_apply _ _ _).trans (congrArg₂ (· + ·) ?_ (broadcastTo_1b_ab_apply (a := 2000) (b := 128) x5 _ p q))
  refine (addf_apply _ _ _).trans (congrArg₂ (· + ·) ?_ (broadcastTo_1b_ab_apply (a := 2000) (b := 128) x4 _ p q))
  refine (addf_apply _ _ _).trans (congrArg₂ (· + ·) ?_ ?_)
  · rw [dotWr_eq]
    exact PlainDot.matmul_apply_ix2 (M := 2000) (K := 896) (N := 128) none _ _ p q
  · rw [dotWl_eq]
    exact PlainDot.matmul_apply_ix2 (M := 2000) (K := 128) (N := 128) none _ _ p q

end Cert.KernelIdeal.Pay0

end
-- ==== Proof.Region0.lean ====
/-
  Launch 0 as one function of whole arrays: whatever the device's buffers hold when the launch is entered, its output array
  ends holding the dense layer of the six arrays its windows read.

  The grid has 15 points; point `t` reads rows `2000 t … 2000 t + 1999` of the aggregated messages and of the node features,
  the whole of the two weight matrices and of the two bias rows, and writes back rows `2000 t … 2000 t + 1999` of the output.
  An entry of the block point `t` writes back is therefore the layer's entry at the same row of the whole arrays, and the 15
  blocks cover the 30000 rows.
-/
import proofs.«118090_j45775761441170_1_alg».proof.Proof.Gen.KernelIdeal.Frame
import proofs.«118090_j45775761441170_1_alg».proof.Proof.Payload0
import proofs.«118090_j45775761441170_1_alg».proof.Proof.LayerSpec
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two row-tiled inputs and the output move with the point, the
    weights and the biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `x 0` of point `t`'s block of the aggregated messages is row `2000 t + x 0` of the array. -/
theorem blk0_apply (c : Dev nD) (t : Fin cfg0.N) (x : S2000x896.Idx) (k : S30000x896.Idx)
    (hk0 : (k 0).val = 2000 * t.val + (x 0).val) (hk1 : (k 1).val = (x 1).val) :
    (iblk0 V c 0 t : Vec Ideal S2000x896 .f32) x = (V c main_v16 : S30000x896.Idx → Elt Ideal .f32) k := by
  obtain ⟨h0, h1, -⟩ := idx_facts t
  unfold iblk0
  rw [View.read_apply]
  show V c main_v16 _ = V c main_v16 _
  refine congrArg (V c main_v16) ?_
  funext a
  apply Fin.ext
  match a with
  | ⟨0, _⟩ => show win0_0.index t 0 * 2000 + 1 * (x 0).val = (k 0).val; rw [h0, hk0]; omega
  | ⟨1, _⟩ => show win0_0.index t 1 * 896 + 1 * (x 1).val = (k 1).val; rw [h1, hk1]; omega

/-- Row `x 0` of point `t`'s block of the node features is row `2000 t + x 0` of the array. -/
theorem blk1_apply (c : Dev nD) (t : Fin cfg0.N) (x : S2000x128.Idx) (k : S30000x128.Idx)
    (hk0 : (k 0).val = 2000 * t.val + (x 0).val) (hk1 : (k 1).val = (x 1).val) :
    (iblk0 V c 1 t : Vec Ideal S2000x128 .f32) x = (V c main_arg0 : S30000x128.Idx → Elt Ideal .f32) k := by
  obtain ⟨-, -, h0, h1, -⟩ := idx_facts t
  unfold iblk0
  rw [View.read_apply]
  show V c main_arg0 _ = V c main_arg0 _
  refine congrArg (V c main_arg0) ?_
  funext a
  apply Fin.ext
  match a with
  | ⟨0, _⟩ => show win0_1.index t 0 * 2000 + 1 * (x 0).val = (k 0).val; rw [h0, hk0]; omega
  | ⟨1, _⟩ => show win0_1.index t 1 * 128 + 1 * (x 1).val = (k 1).val; rw [h1, hk1]; omega

/-- Every point's block of the relational weights is the whole matrix. -/
theorem blk2_apply (c : Dev nD) (t : Fin cfg0.N) (x : S896x128.Idx) :
    (iblk0 V c 2 t : Vec Ideal S896x128 .f32) x = (V c main_v24 : S896x128.Idx → Elt Ideal .f32) x := by
  obtain ⟨-, -, -, -, h0, h1, -⟩ := idx_facts t
  unfold iblk0
  rw [View.read_apply]
  show V c main_v24 _ = V c main_v24 _
  refine congrArg (V c main_v24) ?_
  funext a
  apply Fin.ext
  match a with
  | ⟨0, _⟩ => show win0_2.index t 0 * 896 + 1 * (x 0).val = (x 0).val; rw [h0]; omega
  | ⟨1, _⟩ => show win0_2.index t 1 * 128 + 1 * (x 1).val = (x 1).val; rw [h1]; omega

/-- Every point's block of the self-loop weights is the whole matrix. -/
theorem blk3_apply (c : Dev nD) (t : Fin cfg0.N) (x : S128x128.Idx) :
    (iblk0 V c 3 t : Vec Ideal S128x128 .f32) x = (V c main_v26 : S128x128.Idx → Elt Ideal .f32) x := by
  obtain ⟨-, -, -, -, -, -, h0, h1, -⟩ := idx_facts t
  unfold iblk0
  rw [View.read_apply]
  show V c main_v26 _ = V c main_v26 _
  refine congrArg (V c main_v26) ?_
  funext a
  apply Fin.ext
  match a with
  | ⟨0, _⟩ => show win0_3.index t 0 * 128 + 1 * (x 0).val = (x 0).val; rw [h0]; omega
  | ⟨1, _⟩ => show win0_3.index t 1 * 128 + 1 * (x 1).val = (x 1).val; rw [h1]; omega

/-- Every point's block of the first bias is the whole row. -/
theorem blk4_apply (c : Dev nD) (t : Fin cfg0.N) (x : S1x128.Idx) :
    (iblk0 V c 4 t : Vec Ideal S1x128 .f32) x = (V c main_v19 : S1x128.Idx → Elt Ideal .f32) x := by
  obtain ⟨-, -, -, -, -, -, -, -, h0, h1, -⟩ := idx_facts t
  unfold iblk0
  rw [View.read_apply]
  show V c main_v19 _ = V c main_v19 _
  refine congrArg (V c main_v19) ?_
  funext a
  apply Fin.ext
  match a with
  | ⟨0, _⟩ => show win0_4.index t 0 * 1 + 1 * (x 0).val = (x 0).val; rw [h0]; omega
  | ⟨1, _⟩ => show win0_4.index t 1 * 128 + 1 * (x 1).val = (x 1).val; rw [h1]; omega

/-- Every point's block of the second bias is the whole row. -/
theorem blk5_apply (c : Dev nD) (t : Fin cfg0.N) (x : S1x128.Idx) :
    (iblk0 V c 5 t : Vec Ideal S1x128 .f32) x = (V c main_v22 : S1x128.Idx → Elt Ideal .f32) x := by
  obtain ⟨-, -, -, -, -, -, -, -, -, -, h0, h1, -⟩ := idx_facts t
  unfold iblk0
  rw [View.read_apply]
  show V c main_v22 _ = V c main_v22 _
  refine congrArg (V c main_v22) ?_
  funext a
  apply Fin.ext
  match a with
  | ⟨0, _⟩ => show win0_5.index t 0 * 1 + 1 * (x 0).val = (x 0).val; rw [h0]; omega
  | ⟨1, _⟩ => show win0_5.index t 1 * 128 + 1 * (x 1).val = (x 1).val; rw [h1]; omega

/-- The layer of the six arrays as the launch finds them. -/
abbrev result (c : Dev nD) : S30000x128.Idx → EReal :=
  Cert.Layer.layer (V c main_v16) (V c main_arg0) (V c main_v24) (V c main_v26) (V c main_v19) (V c main_v22)

/-- What point `t`'s body stores at row `p`, feature `q` of its block is the layer's entry at row `2000 t + p`. -/
theorem point_eq (c : Dev nD) (t : Fin cfg0.N) (p : Fin 2000) (q : Fin 128) (r : Fin 30000) (hr : r.val = 2000 * t.val + p.val) :
    k0_pay1 (F := Ideal) (iblk0 V c 0 t) (iblk0 V c 1 t) (iblk0 V c 2 t) (iblk0 V c 3 t) (iblk0 V c 4 t) (iblk0 V c 5 t) (ix2 p q)
      = result V c (ix2 r q) := by
  refine (Cert.KernelIdeal.Pay0.pay_apply (iblk0 V c 0 t) (iblk0 V c 1 t) (iblk0 V c 2 t) (iblk0 V c 3 t) (iblk0 V c 4 t) (iblk0 V c 5 t) p q).trans ?_
  refine Eq.trans ?_ (Cert.Layer.layer_ix2 (V c main_v16) (V c main_arg0) (V c main_v24) (V c main_v26) (V c main_v19) (V c main_v22) r q).symm
  have e0 : ∀ k : Fin 896, (iblk0 V c 0 t : Vec Ideal S2000x896 .f32) (ix2 p k) = V c main_v16 (ix2 r k) :=
    fun k => blk0_apply V c t (ix2 p k) (ix2 r k) hr rfl
  have e1 : ∀ k : Fin 128, (iblk0 V c 1 t : Vec Ideal S2000x128 .f32) (ix2 p k) = V c main_arg0 (ix2 r k) :=
    fun k => blk1_apply V c t (ix2 p k) (ix2 r k) hr rfl
  have e2 : ∀ k : Fin 896, (iblk0 V c 2 t : Vec Ideal S896x128 .f32) (ix2 k q) = V c main_v24 (ix2 k q) :=
    fun k => blk2_apply V c t (ix2 k q)
  have e3 : ∀ k : Fin 128, (iblk0 V c 3 t : Vec Ideal S128x128 .f32) (ix2 k q) = V c main_v26 (ix2 k q) :=
    fun k => blk3_apply V c t (ix2 k q)
  have e4 : (iblk0 V c 4 t : Vec Ideal S1x128 .f32) (ix2 (0 : Fin 1) q) = V c main_v19 (ix2 (0 : Fin 1) q) := blk4_apply V c t _
  have e5 : (iblk0 V c 5 t : Vec Ideal S1x128 .f32) (ix2 (0 : Fin 1) q) = V c main_v22 (ix2 (0 : Fin 1) q) := blk5_apply V c t _
  refine congr (congr (congr (congrArg Cert.Layer.entry ?_) ?_) e4) e5
  · exact Finset.sum_congr rfl fun k _ => congrArg₂ (· * ·) (e0 k) (e2 k)
  · exact Finset.sum_congr rfl fun k _ => congrArg₂ (· * ·) (e1 k) (e3 k)

/-- What point `t` writes back is block `t` of the layer of the six arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S2000x896) hz, View.ld_unit_zero (S := S2000x128) hz, View.ld_unit_zero (S := S896x128) hz,
    View.ld_unit_zero (S := S128x128) hz, View.ld_unit_zero (S := S1x128) hz]
  obtain ⟨-, -, -, -, -, -, -, -, -, -, -, -, h0, h1⟩ := idx_facts t
  funext j
  rw [View.read_apply]
  obtain ⟨p, q, rfl⟩ : ∃ (p : Fin 2000) (q : Fin 128), j = ix2 p q := ⟨j 0, j 1, eq_ix2 j⟩
  have hp : p.val < 2000 := p.isLt
  have ht : t.val < 15 := by have hN : cfg0.N = 15 := N_0; have := t.isLt; omega
  refine (point_eq V c t p q ⟨2000 * t.val + p.val, by omega⟩ rfl).trans ?_
  refine congrArg (result V c) ?_
  funext a
  apply Fin.ext
  match a with
  | ⟨0, _⟩ => show 2000 * t.val + p.val = win0_6.index t 0 * 2000 + 1 * p.val; rw [h0]; omega
  | ⟨1, _⟩ => show q.val = win0_6.index t 1 * 128 + 1 * q.val; rw [h1]; omega

/-- An index of the output array is in point `t`'s block iff each coordinate is in the block's range on its axis. -/
theorem mem_blk (t : Fin cfg0.N) (i : S30000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v27).slice (win0_6.rect t)).set ↔ _
  rw [View.set_slice_whole, Rect.mem_set_unit]
  exact Iff.rfl

/-- Row `r` of the output is in the block of point `r / 2000`. -/
theorem cover (i : S30000x128.Idx) : ∃ t : Fin cfg0.N, (cfg0.win 6).flush t = true ∧ i ∈ ((cfg0.win 6).blk t).view.set := by
  have hi0 : (i 0).val < 30000 := (i 0).isLt
  have hi1 : (i 1).val < 128 := (i 1).isLt
  have hN : cfg0.N = 15 := N_0
  refine ⟨⟨(i 0).val / 2000, by rw [hN]; omega⟩, flush0_6 _, ?_⟩
  rw [mem_blk]
  obtain ⟨-, -, -, -, -, -, -, -, -, -, -, -, h0, h1⟩ := idx_facts ⟨(i 0).val / 2000, by rw [hN]; omega⟩
  intro a
  match a with
  | ⟨0, _⟩ =>
    show win0_6.index ⟨(i 0).val / 2000, _⟩ 0 * 2000 ≤ (i 0).val ∧ (i 0).val < win0_6.index ⟨(i 0).val / 2000, _⟩ 0 * 2000 + 2000
    rw [h0]; show (i 0).val / 2000 * 2000 ≤ (i 0).val ∧ (i 0).val < (i 0).val / 2000 * 2000 + 2000; omega
  | ⟨1, _⟩ =>
    show win0_6.index ⟨(i 0).val / 2000, _⟩ 1 * 128 ≤ (i 1).val ∧ (i 1).val < win0_6.index ⟨(i 0).val / 2000, _⟩ 1 * 128 + 128
    rw [h1]; omega

/-- The output array after the launch is the layer of the six arrays as the launch found them. -/
theorem final (c : Dev nD) : (dat0 V c).arrAt 6 cfg0.N = result V c :=
  (dat0 V c).arrAt_eq_of_cover 6 (result V c) (fun t _ => flushed_eq V c t) cover

end Cert.KernelIdeal.Reg0

end
-- ==== Proof.Glue.lean ====
/-
  The network as a composition of whole-array functions over the extended reals, in the host's own operations.

  Both programs pass messages with the same host operations: the features are gathered at each edge's source node (negative
  indices wrapped), scaled by the edge weight, summed into the segment `7 · node_out + relation` of a 210000 × 128 array and
  re-laid as 30000 × 896 (`aggregate`). The reference then applies the dense layer with host operations (`denseLayer`: two
  matrix products, the two biases spread over the rows, a maximum with zero), three times over (`feat1`, `feat2`, `feat3`),
  and sums the node features of each graph (`readout`).
-/
import proofs.«118090_j45775761441170_1_alg».proof.Proof.Gen.ReferenceIdeal
import Idealize.ShloMosaic.PureOps.Ideal

noncomputable section

namespace Cert.Glue

open Cert.ReferenceIdeal Cert.ReferenceIdeal.Facts₀ Cert.ReferenceIdeal.Facts Idealize.ShloMosaic

/-- A float array and an integer array of a given shape. -/
abbrev FArr (s : Shape) : Type := FVec Ideal s .f32
abbrev IArr (s : Shape) : Type := IVec s 32

/-- The destination segment of each edge: `7 · node_out + relation`. -/
def segment (x2 x3 : IArr S600000) : IArr S600000 :=
  addi (muli x2 (broadcastInDim S600000 ![] bcast_S_S600000 (constantI S_ 32 7#32))) x3

/-- The edge weights as a column. -/
def weightCol (x4 : FArr S600000) : FArr S600000x1 :=
  broadcastInDim S600000x1 ![0] bcast_S600000_S600000x1_0 x4

/-- The source node of each edge as a gather index, a negative index wrapped by the number of nodes. -/
def sourceIdx (x1 : IArr S600000) : IArr S600000x1 :=
  broadcastInDim S600000x1 ![0] bcast_S600000_S600000x1_0
    (select (cmpi .slt x1 (broadcastInDim S600000 ![] bcast_S_S600000 (constantI S_ 32 0#32)))
      (addi x1 (broadcastInDim S600000 ![] bcast_S_S600000 (constantI S_ 32 30000#32))) x1)

/-- Message passing from the features `h`, the destination segments and the weight column given. -/
def aggregateFrom (h : FArr S30000x128) (x1 : IArr S600000) (seg : IArr S600000) (w : FArr S600000x1) :
    FArr S30000x896 :=
  shapeCast _ (Host.scatterAdd (F := Ideal) scatter_S210000x128_S600000x1_S600000x128_1_0_0_1
    (broadcastInDim S210000x128 ![] bcast_S_S210000x128 (constant (F := Ideal) S_ .f32 0x00000000#32))
    (broadcastInDim S600000x1 ![0] bcast_S600000_S600000x1_0 seg)
    (mulf (F := Ideal) (Host.gather gather_S30000x128_S600000x1_S600000x128_1_0_n_n_0_1_1128 h (sourceIdx x1))
      (broadcastInDim S600000x128 ![0, 1] bcast_S600000x1_S600000x128_0_1 w))) shapeCasts_S210000x128_S30000x896

/-- Message passing from the features `h` and the graph's arrays. -/
def aggregate (h : FArr S30000x128) (x1 x2 x3 : IArr S600000) (x4 : FArr S600000) : FArr S30000x896 :=
  aggregateFrom h x1 (segment x2 x3) (weightCol x4)

/-- The dense layer in the host's operations: `max (u · wr + b1 + h · wl + b2, 0)`, the biases spread over the rows. -/
def denseLayer (u : FArr S30000x896) (h : FArr S30000x128) (wr : FArr S896x128) (wl : FArr S128x128)
    (b1 b2 : FArr S128) : FArr S30000x128 :=
  maximumf (F := Ideal)
    (addf
      (addf
        (addf (Host.dotGeneral (F := Ideal) dot_S30000x896_S896x128_S30000x128_1_0_0_1_n_n none u wr)
          (broadcastInDim S30000x128 ![0, 1] bcast_S1x128_S30000x128_0_1 (broadcastInDim S1x128 ![1] bcast_S128_S1x128_1 b1)))
        (Host.dotGeneral (F := Ideal) dot_S30000x128_S128x128_S30000x128_1_0_0_1_n_n none h wl))
      (broadcastInDim S30000x128 ![0, 1] bcast_S1x128_S30000x128_0_1 (broadcastInDim S1x128 ![1] bcast_S128_S1x128_1 b2)))
    (broadcastInDim S30000x128 ![] bcast_S_S30000x128 (constant (F := Ideal) S_ .f32 0x00000000#32))

/-- Layer `k`'s relational weights, self-loop weights and bias out of the stacked parameters. -/
def wr0 (x6 : FArr S3x896x128) : FArr S896x128 :=
  shapeCast _ (extractStridedSlice S1x896x128 ![0, 0, 0] x6 slices_S3x896x128_S1x896x128_0_0_0) shapeCasts_S1x896x128_S896x128
def wr1 (x6 : FArr S3x896x128) : FArr S896x128 :=
  shapeCast _ (extractStridedSlice S1x896x128 ![1, 0, 0] x6 slices_S3x896x128_S1x896x128_1_0_0) shapeCasts_S1x896x128_S896x128
def wr2 (x6 : FArr S3x896x128) : FArr S896x128 :=
  shapeCast _ (extractStridedSlice S1x896x128 ![2, 0, 0] x6 slices_S3x896x128_S1x896x128_2_0_0) shapeCasts_S1x896x128_S896x128
def wl0 (x8 : FArr S3x128x128) : FArr S128x128 :=
  shapeCast _ (extractStridedSlice S1x128x128 ![0, 0, 0] x8 slices_S3x128x128_S1x128x128_0_0_0) shapeCasts_S1x128x128_S128x128
def wl1 (x8 : FArr S3x128x128) : FArr S128x128 :=
  shapeCast _ (extractStridedSlice S1x128x128 ![1, 0, 0] x8 slices_S3x128x128_S1x128x128_1_0_0) shapeCasts_S1x128x128_S128x128
def wl2 (x8 : FArr S3x128x128) : FArr S128x128 :=
  shapeCast _ (extractStridedSlice S1x128x128 ![2, 0, 0] x8 slices_S3x128x128_S1x128x128_2_0_0) shapeCasts_S1x128x128_S128x128
def bias0 (x : FArr S3x128) : FArr S128 :=
  shapeCast _ (extractStridedSlice S1x128 ![0, 0] x slices_S3x128_S1x128_0_0) shapeCasts_S1x128_S128
def bias1 (x : FArr S3x128) : FArr S128 :=
  shapeCast _ (extractStridedSlice S1x128 ![1, 0] x slices_S3x128_S1x128_1_0) shapeCasts_S1x128_S128
def bias2 (x : FArr S3x128) : FArr S128 :=
  shapeCast _ (extractStridedSlice S1x128 ![2, 0] x slices_S3x128_S1x128_2_0) shapeCasts_S1x128_S128

/-- The node features after one, two and three layers. -/
def feat1 (x0 : FArr S30000x128) (x1 x2 x3 : IArr S600000) (x4 : FArr S600000) (x6 : FArr S3x896x128)
    (x7 : FArr S3x128) (x8 : FArr S3x128x128) (x9 : FArr S3x128) : FArr S30000x128 :=
  denseLayer (aggregate x0 x1 x2 x3 x4) x0 (wr0 x6) (wl0 x8) (bias0 x7) (bias0 x9)
def feat2 (x0 : FArr S30000x128) (x1 x2 x3 : IArr S600000) (x4 : FArr S600000) (x6 : FArr S3x896x128)
    (x7 : FArr S3x128) (x8 : FArr S3x128x128) (x9 : FArr S3x128) : FArr S30000x128 :=
  denseLayer (aggregate (feat1 x0 x1 x2 x3 x4 x6 x7 x8 x9) x1 x2 x3 x4) (feat1 x0 x1 x2 x3 x4 x6 x7 x8 x9) (wr1 x6) (wl1 x8) (bias1 x7) (bias1 x9)
def feat3 (x0 : FArr S30000x128) (x1 x2 x3 : IArr S600000) (x4 : FArr S600000) (x6 : FArr S3x896x128)
    (x7 : FArr S3x128) (x8 : FArr S3x128x128) (x9 : FArr S3x128) : FArr S30000x128 :=
  denseLayer (aggregate (feat2 x0 x1 x2 x3 x4 x6 x7 x8 x9) x1 x2 x3 x4) (feat2 x0 x1 x2 x3 x4 x6 x7 x8 x9) (wr2 x6) (wl2 x8) (bias2 x7) (bias2 x9)

/-- The per-graph sums of the node features. -/
def readout (h : FArr S30000x128) (x5 : IArr S30000) : FArr S16x128 :=
  Host.scatterAdd (F := Ideal) scatter_S16x128_S30000x1_S30000x128_1_0_0_1
    (broadcastInDim S16x128 ![] bcast_S_S16x128 (constant (F := Ideal) S_ .f32 0x00000000#32))
    (broadcastInDim S30000x1 ![0] bcast_S30000_S30000x1_0 x5) h

end Cert.Glue

end
-- ==== Proof.LayerBridge.lean ====
/-
  The dense layer in the host's operations is the layer of the specification, entry by entry: each `dot_general` is the sum
  over the contracted coordinate, a bias vector spread first to a 1 × 128 row and then over the 30000 rows reads the vector at
  the entry's feature, and so does the vector re-laid as a 1 × 128 row; the two ways of ordering the four summands agree
  because addition of extended reals is commutative and associative.
-/
import proofs.«118090_j45775761441170_1_alg».proof.Proof.Glue
import proofs.«118090_j45775761441170_1_alg».proof.Proof.LayerSpec
import proofs.«118090_j45775761441170_1_alg».proof.Proof.LibPlainDot
import Idealize.ShloMosaic.Lib.Pipeline.Value
import Idealize.ShloMosaic.Lib.ValueLayout

noncomputable section

namespace Cert.Glue

open Cert.ReferenceIdeal Cert.ReferenceIdeal.Facts₀ Cert.ReferenceIdeal.Facts Idealize.ShloMosaic Idealize.ShloMosaic.ValueIdx

theorem dotWr_eq : dot_S30000x896_S896x128_S30000x128_1_0_0_1_n_n = DotDims.plain 30000 896 128 := rfl
theorem dotWl_eq : dot_S30000x128_S128x128_S30000x128_1_0_0_1_n_n = DotDims.plain 30000 128 128 := rfl

/-- A bias vector spread to a row and then over the rows, read at node `r` and feature `c`, is the vector at `c`. -/
theorem spread_apply (b : FArr S128) (r : Fin 30000) (c : Fin 128) :
    broadcastInDim S30000x128 ![0, 1] bcast_S1x128_S30000x128_0_1 (broadcastInDim S1x128 ![1] bcast_S128_S1x128_1 b) (ix2 r c)
      = b (ix1 c) := by
  refine (broadcastInDim_apply _ bcast_S1x128_S30000x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans ?_
  exact broadcastInDim_apply _ bcast_S128_S1x128_1 b (ix2 (0 : Fin 1) c) (ix1 c) (fun a => match a with
    | ⟨0, _⟩ => by show c.val = if (128 : Nat) = 1 then 0 else c.val; rw [if_neg (by decide)])

/-- The host's dense layer is the specification's, the bias vectors read as rows. -/
theorem denseLayer_eq (u : FArr S30000x896) (h : FArr S30000x128) (wr : FArr S896x128) (wl : FArr S128x128)
    (b1 b2 : FArr S128) (hc : S128.ShapeCasts S1x128) :
    Cert.Layer.layer u h wr wl (shapeCast S1x128 b1 hc) (shapeCast S1x128 b2 hc) = denseLayer u h wr wl b1 b2 := by
  funext i
  obtain ⟨r, c, rfl⟩ : ∃ (r : Fin 30000) (c : Fin 128), i = ix2 r c := ⟨i 0, i 1, eq_ix2 i⟩
  rw [Cert.Layer.layer_ix2, shapeCast_a_1a_apply (a := 128) b1 hc 0 c, shapeCast_a_1a_apply (a := 128) b2 hc 0 c]
  unfold denseLayer
  refine Eq.trans ?_ (maximumf_apply _ _ _).symm
  refine (Cert.Layer.entry_swap _ _ _ _).symm.trans (congrArg₂ max ?_ rfl)
  refine Eq.trans ?_ (addf_apply _ _ _).symm
  refine congrArg₂ (· + ·) ?_ (spread_apply b2 r c).symm
  refine Eq.trans ?_ (addf_apply _ _ _).symm
  refine congrArg₂ (· + ·) ?_ ?_
  · refine Eq.trans ?_ (addf_apply _ _ _).symm
    refine congrArg₂ (· + ·) ?_ (spread_apply b1 r c).symm
    simp only [Host.dotGeneral]
    rw [dotWr_eq]
    exact (PlainDot.dotGeneral_apply_ix2 (M := 30000) (K := 896) (N := 128) none _ u wr r c).symm
  · simp only [Host.dotGeneral]
    rw [dotWl_eq]
    exact (PlainDot.dotGeneral_apply_ix2 (M := 30000) (K := 128) (N := 128) none _ h wl r c).symm

end Cert.Glue

end
-- ==== Proof.Chain0.lean ====
/-
  The idealized kernel's buffers up to the end of the first launch, as functions of the argument arrays.

  The host operations before the first launch compute the aggregated messages of the input features, the first layer's slices
  of the stacked parameters, the destination segments and the weight column; the launch then leaves the first layer's output,
  which by the layer's two readings is the reference's first layer of the arguments.
-/
import proofs.«118090_j45775761441170_1_alg».proof.Proof.Gen.KernelIdeal.Frame
import proofs.«118090_j45775761441170_1_alg».proof.Proof.Region0
import proofs.«118090_j45775761441170_1_alg».proof.Proof.Glue
import proofs.«118090_j45775761441170_1_alg».proof.Proof.LayerBridge
import Idealize.ShloMosaic.Lib.StableHlo.Run

set_option maxRecDepth 16384

noncomputable section

namespace Cert.KernelIdeal.Chain

open Cert.KernelIdeal Cert.KernelIdeal.Gen Cert.KernelIdeal.Facts₀ Cert.KernelIdeal.Facts Cert.Glue
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The ten argument arrays at launch. -/
abbrev X0 : FArr Cert.ReferenceIdeal.S30000x128 := m ((c.tc : Thread nD τ).loc main_arg0)
abbrev X1 : IArr Cert.ReferenceIdeal.S600000 := m ((c.tc : Thread nD τ).loc main_arg1)
abbrev X2 : IArr Cert.ReferenceIdeal.S600000 := m ((c.tc : Thread nD τ).loc main_arg2)
abbrev X3 : IArr Cert.ReferenceIdeal.S600000 := m ((c.tc : Thread nD τ).loc main_arg3)
abbrev X4 : FArr Cert.ReferenceIdeal.S600000 := m ((c.tc : Thread nD τ).loc main_arg4)
abbrev X5 : IArr Cert.ReferenceIdeal.S30000 := m ((c.tc : Thread nD τ).loc main_arg5)
abbrev X6 : FArr Cert.ReferenceIdeal.S3x896x128 := m ((c.tc : Thread nD τ).loc main_arg6)
abbrev X7 : FArr Cert.ReferenceIdeal.S3x128 := m ((c.tc : Thread nD τ).loc main_arg7)
abbrev X8 : FArr Cert.ReferenceIdeal.S3x128x128 := m ((c.tc : Thread nD τ).loc main_arg8)
abbrev X9 : FArr Cert.ReferenceIdeal.S3x128 := m ((c.tc : Thread nD τ).loc main_arg9)

/-! ## What the first launch finds -/

theorem W1_main_v16 : W1 m ρ c (Proc.devRef .tc main_v16) = aggregate (X0 m c) (X1 m c) (X2 m c) (X3 m c) (X4 m c) := by
  dsimp only [W1, hostOps0]
  after_results_simp
  all_goals rfl

theorem W1_main_arg0 : W1 m ρ c (Proc.devRef .tc main_arg0) = X0 m c := by
  dsimp only [W1, hostOps0]
  after_results_simp
  all_goals rfl

theorem W1_main_v24 : W1 m ρ c (Proc.devRef .tc main_v24) = wr0 (X6 m c) := by
  dsimp only [W1, hostOps0]
  after_results_simp
  all_goals rfl

theorem W1_main_v26 : W1 m ρ c (Proc.devRef .tc main_v26) = wl0 (X8 m c) := by
  dsimp only [W1, hostOps0]
  after_results_simp
  all_goals rfl

theorem W1_main_v19 : W1 m ρ c (Proc.devRef .tc main_v19) = shapeCast S1x128 (bias0 (X7 m c)) Facts₀.shapeCasts_S128_S1x128 := by
  dsimp only [W1, hostOps0]
  after_results_simp
  all_goals rfl

theorem W1_main_v22 : W1 m ρ c (Proc.devRef .tc main_v22) = shapeCast S1x128 (bias0 (X9 m c)) Facts₀.shapeCasts_S128_S1x128 := by
  dsimp only [W1, hostOps0]
  after_results_simp
  all_goals rfl

/-! ## The buffers later stretches read again, before and after the first launch -/

theorem W1_main_arg1 : W1 m ρ c (Proc.devRef .tc main_arg1) = X1 m c := by
  dsimp only [W1, hostOps0]
  after_results_simp
  all_goals rfl

theorem W1_main_v2 : W1 m ρ c (Proc.devRef .tc main_v2) = segment (X2 m c) (X3 m c) := by
  dsimp only [W1, hostOps0]
  after_results_simp
  all_goals rfl

theorem W1_main_v3 : W1 m ρ c (Proc.devRef .tc main_v3) = weightCol (X4 m c) := by
  dsimp only [W1, hostOps0]
  after_results_simp
  all_goals rfl

theorem W1_main_arg5 : W1 m ρ c (Proc.devRef .tc main_arg5) = X5 m c := by
  dsimp only [W1, hostOps0]
  after_results_simp
  all_goals rfl

theorem W1_main_arg6 : W1 m ρ c (Proc.devRef .tc main_arg6) = X6 m c := by
  dsimp only [W1, hostOps0]
  after_results_simp
  all_goals rfl

theorem W1_main_arg7 : W1 m ρ c (Proc.devRef .tc main_arg7) = X7 m c := by
  dsimp only [W1, hostOps0]
  after_results_simp
  all_goals rfl

theorem W1_main_arg8 : W1 m ρ c (Proc.devRef .tc main_arg8) = X8 m c := by
  dsimp only [W1, hostOps0]
  after_results_simp
  all_goals rfl

theorem W1_main_arg9 : W1 m ρ c (Proc.devRef .tc main_arg9) = X9 m c := by
  dsimp only [W1, hostOps0]
  after_results_simp
  all_goals rfl

theorem W2_main_arg1 : W2 m ρ c (Proc.devRef .tc main_arg1) = X1 m c :=
  (W2_of_ne m ρ c main_arg1 (by decide)).trans (W1_main_arg1 m ρ c)

theorem W2_main_v2 : W2 m ρ c (Proc.devRef .tc main_v2) = segment (X2 m c) (X3 m c) :=
  (W2_of_ne m ρ c main_v2 (by decide)).trans (W1_main_v2 m ρ c)

theorem W2_main_v3 : W2 m ρ c (Proc.devRef .tc main_v3) = weightCol (X4 m c) :=
  (W2_of_ne m ρ c main_v3 (by decide)).trans (W1_main_v3 m ρ c)

theorem W2_main_arg5 : W2 m ρ c (Proc.devRef .tc main_arg5) = X5 m c :=
  (W2_of_ne m ρ c main_arg5 (by decide)).trans (W1_main_arg5 m ρ c)

theorem W2_main_arg6 : W2 m ρ c (Proc.devRef .tc main_arg6) = X6 m c :=
  (W2_of_ne m ρ c main_arg6 (by decide)).trans (W1_main_arg6 m ρ c)

theorem W2_main_arg7 : W2 m ρ c (Proc.devRef .tc main_arg7) = X7 m c :=
  (W2_of_ne m ρ c main_arg7 (by decide)).trans (W1_main_arg7 m ρ c)

theorem W2_main_arg8 : W2 m ρ c (Proc.devRef .tc main_arg8) = X8 m c :=
  (W2_of_ne m ρ c main_arg8 (by decide)).trans (W1_main_arg8 m ρ c)

theorem W2_main_arg9 : W2 m ρ c (Proc.devRef .tc main_arg9) = X9 m c :=
  (W2_of_ne m ρ c main_arg9 (by decide)).trans (W1_main_arg9 m ρ c)

/-! ## The first layer -/

/-- The first launch leaves the reference's first layer of the arguments in its output array. -/
theorem W2_main_v27 : W2 m ρ c (Proc.devRef .tc main_v27) = feat1 (X0 m c) (X1 m c) (X2 m c) (X3 m c) (X4 m c) (X6 m c) (X7 m c) (X8 m c) (X9 m c) := by
  refine ((W2_arr m ρ c 6).trans (Cert.KernelIdeal.Reg0.final (V1 m ρ) c)).trans ?_
  show Cert.Layer.layer (W1 m ρ c (Proc.devRef .tc main_v16)) (W1 m ρ c (Proc.devRef .tc main_arg0)) (W1 m ρ c (Proc.devRef .tc main_v24))
    (W1 m ρ c (Proc.devRef .tc main_v26)) (W1 m ρ c (Proc.devRef .tc main_v19)) (W1 m ρ c (Proc.devRef .tc main_v22)) = _
  rw [W1_main_v16, W1_main_arg0, W1_main_v24, W1_main_v26, W1_main_v19, W1_main_v22]
  exact denseLayer_eq _ _ _ _ _ _ _

end Cert.KernelIdeal.Chain

end
-- ==== Proof.Payload1.lean ====
/-
  What launch 1's body stores, read at one entry of its 2000 × 128 output block: from the block's rows of the aggregated
  messages and of the node features, the two weight matrices and the two bias rows, the layer's entry — the two matrix
  products as sums over the contracted coordinate (a change of float format is the identity over the extended reals), the
  bias rows spread over the block's rows.
-/
import proofs.«118090_j45775761441170_1_alg».proof.Proof.Gen.KernelIdeal.Skeleton
import proofs.«118090_j45775761441170_1_alg».proof.Proof.LibPlainDot
import proofs.«118090_j45775761441170_1_alg».proof.Proof.LayerSpec
import Idealize.ShloMosaic.Lib.Pipeline.Value
import Idealize.ShloMosaic.Lib.ValueLayout

noncomputable section

namespace Cert.KernelIdeal.Pay1

open Cert.KernelIdeal Cert.KernelIdeal.Gen
open Idealize.ShloMosaic Idealize.ShloMosaic.ValueIdx

theorem dotWr_eq : dot_S2000x896_S896x128_S2000x128_1_0_0_1_n_n = DotDims.plain 2000 896 128 := rfl
theorem dotWl_eq : dot_S2000x128_S128x128_S2000x128_1_0_0_1_n_n = DotDims.plain 2000 128 128 := rfl

/-- The stored value at row `p` and feature `q` of the block. -/
theorem pay_apply (x0 : Vec Ideal S2000x896 .f32) (x1 : Vec Ideal S2000x128 .f32) (x2 : Vec Ideal S896x128 .f32)
    (x3 : Vec Ideal S128x128 .f32) (x4 x5 : Vec Ideal S1x128 .f32) (p : Fin 2000) (q : Fin 128) :
    k1_pay1 (F := Ideal) x0 x1 x2 x3 x4 x5 (ix2 p q)
      = Cert.Layer.entry (∑ k : Fin 896, x0 (ix2 p k) * x2 (ix2 k q)) (∑ k : Fin 128, x1 (ix2 p k) * x3 (ix2 k q))
          (x4 (ix2 (0 : Fin 1) q)) (x5 (ix2 (0 : Fin 1) q)) := by
  unfold k1_pay1 Cert.Layer.entry
  simp only [shapeCast_self]
  refine (maximumf_apply _ _ _).trans (congrArg₂ max ?_ rfl)
  refine (addf_apply _ _ _).trans (congrArg₂ (· + ·) ?_ (broadcastTo_1b_ab_apply (a := 2000) (b := 128) x5 _ p q))
  refine (addf_apply _ _ _).trans (congrArg₂ (· + ·) ?_ (broadcastTo_1b_ab_apply (a := 2000) (b := 128) x4 _ p q))
  refine (addf_apply _ _ _).trans (congrArg₂ (· + ·) ?_ ?_)
  · rw [dotWr_eq]
    exact PlainDot.matmul_apply_ix2 (M := 2000) (K := 896) (N := 128) none _ _ p q
  · rw [dotWl_eq]
    exact PlainDot.matmul_apply_ix2 (M := 2000) (K := 128) (N := 128) none _ _ p q

end Cert.KernelIdeal.Pay1

end
-- ==== Proof.Region1.lean ====
/-
  Launch 1 as one function of whole arrays: whatever the device's buffers hold when the launch is entered, its output array
  ends holding the dense layer of the six arrays its windows read.

  The grid has 15 points; point `t` reads rows `2000 t … 2000 t + 1999` of the aggregated messages and of the node features,
  the whole of the two weight matrices and of the two bias rows, and writes back rows `2000 t … 2000 t + 1999` of the output.
  An entry of the block point `t` writes back is therefore the layer's entry at the same row of the whole arrays, and the 15
  blocks cover the 30000 rows.
-/
import proofs.«118090_j45775761441170_1_alg».proof.Proof.Gen.KernelIdeal.Frame
import proofs.«118090_j45775761441170_1_alg».proof.Proof.Payload1
import proofs.«118090_j45775761441170_1_alg».proof.Proof.LayerSpec
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two row-tiled inputs and the output move with the point, the
    weights and the biases stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `x 0` of point `t`'s block of the aggregated messages is row `2000 t + x 0` of the array. -/
theorem blk0_apply (c : Dev nD) (t : Fin cfg1.N) (x : S2000x896.Idx) (k : S30000x896.Idx)
    (hk0 : (k 0).val = 2000 * t.val + (x 0).val) (hk1 : (k 1).val = (x 1).val) :
    (iblk1 V c 0 t : Vec Ideal S2000x896 .f32) x = (V c main_v40 : S30000x896.Idx → Elt Ideal .f32) k := by
  obtain ⟨h0, h1, -⟩ := idx_facts t
  unfold iblk1
  rw [View.read_apply]
  show V c main_v40 _ = V c main_v40 _
  refine congrArg (V c main_v40) ?_
  funext a
  apply Fin.ext
  match a with
  | ⟨0, _⟩ => show win1_0.index t 0 * 2000 + 1 * (x 0).val = (k 0).val; rw [h0, hk0]; omega
  | ⟨1, _⟩ => show win1_0.index t 1 * 896 + 1 * (x 1).val = (k 1).val; rw [h1, hk1]; omega

/-- Row `x 0` of point `t`'s block of the node features is row `2000 t + x 0` of the array. -/
theorem blk1_apply (c : Dev nD) (t : Fin cfg1.N) (x : S2000x128.Idx) (k : S30000x128.Idx)
    (hk0 : (k 0).val = 2000 * t.val + (x 0).val) (hk1 : (k 1).val = (x 1).val) :
    (iblk1 V c 1 t : Vec Ideal S2000x128 .f32) x = (V c main_v27 : S30000x128.Idx → Elt Ideal .f32) k := by
  obtain ⟨-, -, h0, h1, -⟩ := idx_facts t
  unfold iblk1
  rw [View.read_apply]
  show V c main_v27 _ = V c main_v27 _
  refine congrArg (V c main_v27) ?_
  funext a
  apply Fin.ext
  match a with
  | ⟨0, _⟩ => show win1_1.index t 0 * 2000 + 1 * (x 0).val = (k 0).val; rw [h0, hk0]; omega
  | ⟨1, _⟩ => show win1_1.index t 1 * 128 + 1 * (x 1).val = (k 1).val; rw [h1, hk1]; omega

/-- Every point's block of the relational weights is the whole matrix. -/
theorem blk2_apply (c : Dev nD) (t : Fin cfg1.N) (x : S896x128.Idx) :
    (iblk1 V c 2 t : Vec Ideal S896x128 .f32) x = (V c main_v48 : S896x128.Idx → Elt Ideal .f32) x := by
  obtain ⟨-, -, -, -, h0, h1, -⟩ := idx_facts t
  unfold iblk1
  rw [View.read_apply]
  show V c main_v48 _ = V c main_v48 _
  refine congrArg (V c main_v48) ?_
  funext a
  apply Fin.ext
  match a with
  | ⟨0, _⟩ => show win1_2.index t 0 * 896 + 1 * (x 0).val = (x 0).val; rw [h0]; omega
  | ⟨1, _⟩ => show win1_2.index t 1 * 128 + 1 * (x 1).val = (x 1).val; rw [h1]; omega

/-- Every point's block of the self-loop weights is the whole matrix. -/
theorem blk3_apply (c : Dev nD) (t : Fin cfg1.N) (x : S128x128.Idx) :
    (iblk1 V c 3 t : Vec Ideal S128x128 .f32) x = (V c main_v50 : S128x128.Idx → Elt Ideal .f32) x := by
  obtain ⟨-, -, -, -, -, -, h0, h1, -⟩ := idx_facts t
  unfold iblk1
  rw [View.read_apply]
  show V c main_v50 _ = V c main_v50 _
  refine congrArg (V c main_v50) ?_
  funext a
  apply Fin.ext
  match a with
  | ⟨0, _⟩ => show win1_3.index t 0 * 128 + 1 * (x 0).val = (x 0).val; rw [h0]; omega
  | ⟨1, _⟩ => show win1_3.index t 1 * 128 + 1 * (x 1).val = (x 1).val; rw [h1]; omega

/-- Every point's block of the first bias is the whole row. -/
theorem blk4_apply (c : Dev nD) (t : Fin cfg1.N) (x : S1x128.Idx) :
    (iblk1 V c 4 t : Vec Ideal S1x128 .f32) x = (V c main_v43 : S1x128.Idx → Elt Ideal .f32) x := by
  obtain ⟨-, -, -, -, -, -, -, -, h0, h1, -⟩ := idx_facts t
  unfold iblk1
  rw [View.read_apply]
  show V c main_v43 _ = V c main_v43 _
  refine congrArg (V c main_v43) ?_
  funext a
  apply Fin.ext
  match a with
  | ⟨0, _⟩ => show win1_4.index t 0 * 1 + 1 * (x 0).val = (x 0).val; rw [h0]; omega
  | ⟨1, _⟩ => show win1_4.index t 1 * 128 + 1 * (x 1).val = (x 1).val; rw [h1]; omega

/-- Every point's block of the second bias is the whole row. -/
theorem blk5_apply (c : Dev nD) (t : Fin cfg1.N) (x : S1x128.Idx) :
    (iblk1 V c 5 t : Vec Ideal S1x128 .f32) x = (V c main_v46 : S1x128.Idx → Elt Ideal .f32) x := by
  obtain ⟨-, -, -, -, -, -, -, -, -, -, h0, h1, -⟩ := idx_facts t
  unfold iblk1
  rw [View.read_apply]
  show V c main_v46 _ = V c main_v46 _
  refine congrArg (V c main_v46) ?_
  funext a
  apply Fin.ext
  match a with
  | ⟨0, _⟩ => show win1_5.index t 0 * 1 + 1 * (x 0).val = (x 0).val; rw [h0]; omega
  | ⟨1, _⟩ => show win1_5.index t 1 * 128 + 1 * (x 1).val = (x 1).val; rw [h1]; omega

/-- The layer of the six arrays as the launch finds them. -/
abbrev result (c : Dev nD) : S30000x128.Idx → EReal :=
  Cert.Layer.layer (V c main_v40) (V c main_v27) (V c main_v48) (V c main_v50) (V c main_v43) (V c main_v46)

/-- What point `t`'s body stores at row `p`, feature `q` of its block is the layer's entry at row `2000 t + p`. -/
theorem point_eq (c : Dev nD) (t : Fin cfg1.N) (p : Fin 2000) (q : Fin 128) (r : Fin 30000) (hr : r.val = 2000 * t.val + p.val) :
    k1_pay1 (F := Ideal) (iblk1 V c 0 t) (iblk1 V c 1 t) (iblk1 V c 2 t) (iblk1 V c 3 t) (iblk1 V c 4 t) (iblk1 V c 5 t) (ix2 p q)
      = result V c (ix2 r q) := by
  refine (Cert.KernelIdeal.Pay1.pay_apply (iblk1 V c 0 t) (iblk1 V c 1 t) (iblk1 V c 2 t) (iblk1 V c 3 t) (iblk1 V c 4 t) (iblk1 V c 5 t) p q).trans ?_
  refine Eq.trans ?_ (Cert.Layer.layer_ix2 (V c main_v40) (V c main_v27) (V c main_v48) (V c main_v50) (V c main_v43) (V c main_v46) r q).symm
  have e0 : ∀ k : Fin 896, (iblk1 V c 0 t : Vec Ideal S2000x896 .f32) (ix2 p k) = V c main_v40 (ix2 r k) :=
    fun k => blk0_apply V c t (ix2 p k) (ix2 r k) hr rfl
  have e1 : ∀ k : Fin 128, (iblk1 V c 1 t : Vec Ideal S2000x128 .f32) (ix2 p k) = V c main_v27 (ix2 r k) :=
    fun k => blk1_apply V c t (ix2 p k) (ix2 r k) hr rfl
  have e2 : ∀ k : Fin 896, (iblk1 V c 2 t : Vec Ideal S896x128 .f32) (ix2 k q) = V c main_v48 (ix2 k q) :=
    fun k => blk2_apply V c t (ix2 k q)
  have e3 : ∀ k : Fin 128, (iblk1 V c 3 t : Vec Ideal S128x128 .f32) (ix2 k q) = V c main_v50 (ix2 k q) :=
    fun k => blk3_apply V c t (ix2 k q)
  have e4 : (iblk1 V c 4 t : Vec Ideal S1x128 .f32) (ix2 (0 : Fin 1) q) = V c main_v43 (ix2 (0 : Fin 1) q) := blk4_apply V c t _
  have e5 : (iblk1 V c 5 t : Vec Ideal S1x128 .f32) (ix2 (0 : Fin 1) q) = V c main_v46 (ix2 (0 : Fin 1) q) := blk5_apply V c t _
  refine congr (congr (congr (congrArg Cert.Layer.entry ?_) ?_) e4) e5
  · exact Finset.sum_congr rfl fun k _ => congrArg₂ (· * ·) (e0 k) (e2 k)
  · exact Finset.sum_congr rfl fun k _ => congrArg₂ (· * ·) (e1 k) (e3 k)

/-- What point `t` writes back is block `t` of the layer of the six arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S2000x896) hz, View.ld_unit_zero (S := S2000x128) hz, View.ld_unit_zero (S := S896x128) hz,
    View.ld_unit_zero (S := S128x128) hz, View.ld_unit_zero (S := S1x128) hz]
  obtain ⟨-, -, -, -, -, -, -, -, -, -, -, -, h0, h1⟩ := idx_facts t
  funext j
  rw [View.read_apply]
  obtain ⟨p, q, rfl⟩ : ∃ (p : Fin 2000) (q : Fin 128), j = ix2 p q := ⟨j 0, j 1, eq_ix2 j⟩
  have hp : p.val < 2000 := p.isLt
  have ht : t.val < 15 := by have hN : cfg1.N = 15 := N_1; have := t.isLt; omega
  refine (point_eq V c t p q ⟨2000 * t.val + p.val, by omega⟩ rfl).trans ?_
  refine congrArg (result V c) ?_
  funext a
  apply Fin.ext
  match a with
  | ⟨0, _⟩ => show 2000 * t.val + p.val = win1_6.index t 0 * 2000 + 1 * p.val; rw [h0]; omega
  | ⟨1, _⟩ => show q.val = win1_6.index t 1 * 128 + 1 * q.val; rw [h1]; omega

/-- An index of the output array is in point `t`'s block iff each coordinate is in the block's range on its axis. -/
theorem mem_blk (t : Fin cfg1.N) (i : S30000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v51).slice (win1_6.rect t)).set ↔ _
  rw [View.set_slice_whole, Rect.mem_set_unit]
  exact Iff.rfl

/-- Row `r` of the output is in the block of point `r / 2000`. -/
theorem cover (i : S30000x128.Idx) : ∃ t : Fin cfg1.N, (cfg1.win 6).flush t = true ∧ i ∈ ((cfg1.win 6).blk t).view.set := by
  have hi0 : (i 0).val < 30000 := (i 0).isLt
  have hi1 : (i 1).val < 128 := (i 1).isLt
  have hN : cfg1.N = 15 := N_1
  refine ⟨⟨(i 0).val / 2000, by rw [hN]; omega⟩, flush1_6 _, ?_⟩
  rw [mem_blk]
  obtain ⟨-, -, -, -, -, -, -, -, -, -, -, -, h0, h1⟩ := idx_facts ⟨(i 0).val / 2000, by rw [hN]; omega⟩
  intro a
  match a with
  | ⟨0, _⟩ =>
    show win1_6.index ⟨(i 0).val / 2000, _⟩ 0 * 2000 ≤ (i 0).val ∧ (i 0).val < win1_6.index ⟨(i 0).val / 2000, _⟩ 0 * 2000 + 2000
    rw [h0]; show (i 0).val / 2000 * 2000 ≤ (i 0).val ∧ (i 0).val < (i 0).val / 2000 * 2000 + 2000; omega
  | ⟨1, _⟩ =>
    show win1_6.index ⟨(i 0).val / 2000, _⟩ 1 * 128 ≤ (i 1).val ∧ (i 1).val < win1_6.index ⟨(i 0).val / 2000, _⟩ 1 * 128 + 128
    rw [h1]; omega

/-- The output array after the launch is the layer of the six arrays as the launch found them. -/
theorem final (c : Dev nD) : (dat1 V c).arrAt 6 cfg1.N = result V c :=
  (dat1 V c).arrAt_eq_of_cover 6 (result V c) (fun t _ => flushed_eq V c t) cover

end Cert.KernelIdeal.Reg1

end
-- ==== Proof.Chain1.lean ====
/-
  The idealized kernel's buffers up to the end of the second launch. The second stretch of host operations aggregates the
  messages of the first layer's output with the destination segments and the weight column computed before the first launch,
  and slices the second layer's parameters; the launch leaves the reference's second layer.
-/
import proofs.«118090_j45775761441170_1_alg».proof.Proof.Chain0
import proofs.«118090_j45775761441170_1_alg».proof.Proof.Region1
import Idealize.ShloMosaic.Lib.StableHlo.Run

set_option maxRecDepth 16384

noncomputable section

namespace Cert.KernelIdeal.Chain

open Cert.KernelIdeal Cert.KernelIdeal.Gen Cert.KernelIdeal.Facts₀ Cert.KernelIdeal.Facts Cert.Glue
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The buffers later stretches read again, before and after the second launch -/

theorem W3_main_arg1 : W3 m ρ c (Proc.devRef .tc main_arg1) = X1 m c := by
  refine Eq.trans ?_ (W2_main_arg1 m ρ c)
  dsimp only [W3, hostOps1]
  after_results_simp
  all_goals rfl

theorem W3_main_v2 : W3 m ρ c (Proc.devRef .tc main_v2) = segment (X2 m c) (X3 m c) := by
  refine Eq.trans ?_ (W2_main_v2 m ρ c)
  dsimp only [W3, hostOps1]
  after_results_simp
  all_goals rfl

theorem W3_main_v3 : W3 m ρ c (Proc.devRef .tc main_v3) = weightCol (X4 m c) := by
  refine Eq.trans ?_ (W2_main_v3 m ρ c)
  dsimp only [W3, hostOps1]
  after_results_simp
  all_goals rfl

theorem W3_main_arg5 : W3 m ρ c (Proc.devRef .tc main_arg5) = X5 m c := by
  refine Eq.trans ?_ (W2_main_arg5 m ρ c)
  dsimp only [W3, hostOps1]
  after_results_simp
  all_goals rfl

theorem W3_main_arg6 : W3 m ρ c (Proc.devRef .tc main_arg6) = X6 m c := by
  refine Eq.trans ?_ (W2_main_arg6 m ρ c)
  dsimp only [W3, hostOps1]
  after_results_simp
  all_goals rfl

theorem W3_main_arg7 : W3 m ρ c (Proc.devRef .tc main_arg7) = X7 m c := by
  refine Eq.trans ?_ (W2_main_arg7 m ρ c)
  dsimp only [W3, hostOps1]
  after_results_simp
  all_goals rfl

theorem W3_main_arg8 : W3 m ρ c (Proc.devRef .tc main_arg8) = X8 m c := by
  refine Eq.trans ?_ (W2_main_arg8 m ρ c)
  dsimp only [W3, hostOps1]
  after_results_simp
  all_goals rfl

theorem W3_main_arg9 : W3 m ρ c (Proc.devRef .tc main_arg9) = X9 m c := by
  refine Eq.trans ?_ (W2_main_arg9 m ρ c)
  dsimp only [W3, hostOps1]
  after_results_simp
  all_goals rfl

theorem W4_main_arg1 : W4 m ρ c (Proc.devRef .tc main_arg1) = X1 m c :=
  (W4_of_ne m ρ c main_arg1 (by decide)).trans (W3_main_arg1 m ρ c)

theorem W4_main_v2 : W4 m ρ c (Proc.devRef .tc main_v2) = segment (X2 m c) (X3 m c) :=
  (W4_of_ne m ρ c main_v2 (by decide)).trans (W3_main_v2 m ρ c)

theorem W4_main_v3 : W4 m ρ c (Proc.devRef .tc main_v3) = weightCol (X4 m c) :=
  (W4_of_ne m ρ c main_v3 (by decide)).trans (W3_main_v3 m ρ c)

theorem W4_main_arg5 : W4 m ρ c (Proc.devRef .tc main_arg5) = X5 m c :=
  (W4_of_ne m ρ c main_arg5 (by decide)).trans (W3_main_arg5 m ρ c)

theorem W4_main_arg6 : W4 m ρ c (Proc.devRef .tc main_arg6) = X6 m c :=
  (W4_of_ne m ρ c main_arg6 (by decide)).trans (W3_main_arg6 m ρ c)

theorem W4_main_arg7 : W4 m ρ c (Proc.devRef .tc main_arg7) = X7 m c :=
  (W4_of_ne m ρ c main_arg7 (by decide)).trans (W3_main_arg7 m ρ c)

theorem W4_main_arg8 : W4 m ρ c (Proc.devRef .tc main_arg8) = X8 m c :=
  (W4_of_ne m ρ c main_arg8 (by decide)).trans (W3_main_arg8 m ρ c)

theorem W4_main_arg9 : W4 m ρ c (Proc.devRef .tc main_arg9) = X9 m c :=
  (W4_of_ne m ρ c main_arg9 (by decide)).trans (W3_main_arg9 m ρ c)

/-! ## What launch 1 finds -/

theorem W3_main_v27 : W3 m ρ c (Proc.devRef .tc main_v27) = feat1 (X0 m c) (X1 m c) (X2 m c) (X3 m c) (X4 m c) (X6 m c) (X7 m c) (X8 m c) (X9 m c) := by
  refine Eq.trans ?_ (W2_main_v27 m ρ c)
  dsimp only [W3, hostOps1]
  after_results_simp
  all_goals rfl

theorem W3_main_v40 : W3 m ρ c (Proc.devRef .tc main_v40) = aggregate (feat1 (X0 m c) (X1 m c) (X2 m c) (X3 m c) (X4 m c) (X6 m c) (X7 m c) (X8 m c) (X9 m c)) (X1 m c) (X2 m c) (X3 m c) (X4 m c) := by
  have e : W3 m ρ c (Proc.devRef .tc main_v40) = aggregateFrom (W2 m ρ c (Proc.devRef .tc main_v27)) (W2 m ρ c (Proc.devRef .tc main_arg1))
      (W2 m ρ c (Proc.devRef .tc main_v2)) (W2 m ρ c (Proc.devRef .tc main_v3)) := by
    dsimp only [W3, hostOps1]
    after_results_simp
    all_goals rfl
  rw [e, W2_main_v27, W2_main_arg1, W2_main_v2, W2_main_v3]
  all_goals rfl

theorem W3_main_v48 : W3 m ρ c (Proc.devRef .tc main_v48) = wr1 (X6 m c) := by
  have e : W3 m ρ c (Proc.devRef .tc main_v48) = wr1 (W2 m ρ c (Proc.devRef .tc main_arg6)) := by
    dsimp only [W3, hostOps1]
    after_results_simp
    all_goals rfl
  rw [e, W2_main_arg6]

theorem W3_main_v50 : W3 m ρ c (Proc.devRef .tc main_v50) = wl1 (X8 m c) := by
  have e : W3 m ρ c (Proc.devRef .tc main_v50) = wl1 (W2 m ρ c (Proc.devRef .tc main_arg8)) := by
    dsimp only [W3, hostOps1]
    after_results_simp
    all_goals rfl
  rw [e, W2_main_arg8]

theorem W3_main_v43 : W3 m ρ c (Proc.devRef .tc main_v43) = shapeCast S1x128 (bias1 (X7 m c)) Facts₀.shapeCasts_S128_S1x128 := by
  have e : W3 m ρ c (Proc.devRef .tc main_v43) = shapeCast S1x128 (bias1 (W2 m ρ c (Proc.devRef .tc main_arg7))) Facts₀.shapeCasts_S128_S1x128 := by
    dsimp only [W3, hostOps1]
    after_results_simp
    all_goals rfl
  rw [e, W2_main_arg7]

theorem W3_main_v46 : W3 m ρ c (Proc.devRef .tc main_v46) = shapeCast S1x128 (bias1 (X9 m c)) Facts₀.shapeCasts_S128_S1x128 := by
  have e : W3 m ρ c (Proc.devRef .tc main_v46) = shapeCast S1x128 (bias1 (W2 m ρ c (Proc.devRef .tc main_arg9))) Facts₀.shapeCasts_S128_S1x128 := by
    dsimp only [W3, hostOps1]
    after_results_simp
    all_goals rfl
  rw [e, W2_main_arg9]

/-! ## The layer -/

/-- Launch 1 leaves the reference's layer of the arguments in its output array. -/
theorem W4_main_v51 : W4 m ρ c (Proc.devRef .tc main_v51) = feat2 (X0 m c) (X1 m c) (X2 m c) (X3 m c) (X4 m c) (X6 m c) (X7 m c) (X8 m c) (X9 m c) := by
  refine ((W4_arr m ρ c 6).trans (Cert.KernelIdeal.Reg1.final (V3 m ρ) c)).trans ?_
  show Cert.Layer.layer (W3 m ρ c (Proc.devRef .tc main_v40)) (W3 m ρ c (Proc.devRef .tc main_v27)) (W3 m ρ c (Proc.devRef .tc main_v48))
    (W3 m ρ c (Proc.devRef .tc main_v50)) (W3 m ρ c (Proc.devRef .tc main_v43)) (W3 m ρ c (Proc.devRef .tc main_v46)) = _
  rw [W3_main_v40, W3_main_v27, W3_main_v48, W3_main_v50, W3_main_v43, W3_main_v46]
  exact denseLayer_eq _ _ _ _ _ _ _

end Cert.KernelIdeal.Chain

end
-- ==== Proof.Payload2.lean ====
/-
  What launch 2's body stores, read at one entry of its 2000 × 128 output block: from the block's rows of the aggregated
  messages and of the node features, the two weight matrices and the two bias rows, the layer's entry — the two matrix
  products as sums over the contracted coordinate (a change of float format is the identity over the extended reals), the
  bias rows spread over the block's rows.
-/
import proofs.«118090_j45775761441170_1_alg».proof.Proof.Gen.KernelIdeal.Skeleton
import proofs.«118090_j45775761441170_1_alg».proof.Proof.LibPlainDot
import proofs.«118090_j45775761441170_1_alg».proof.Proof.LayerSpec
import Idealize.ShloMosaic.Lib.Pipeline.Value
import Idealize.ShloMosaic.Lib.ValueLayout

noncomputable section

namespace Cert.KernelIdeal.Pay2

open Cert.KernelIdeal Cert.KernelIdeal.Gen
open Idealize.ShloMosaic Idealize.ShloMosaic.ValueIdx

theorem dotWr_eq : dot_S2000x896_S896x128_S2000x128_1_0_0_1_n_n = DotDims.plain 2000 896 128 := rfl
theorem dotWl_eq : dot_S2000x128_S128x128_S2000x128_1_0_0_1_n_n = DotDims.plain 2000 128 128 := rfl

/-- The stored value at row `p` and feature `q` of the block. -/
theorem pay_apply (x0 : Vec Ideal S2000x896 .f32) (x1 : Vec Ideal S2000x128 .f32) (x2 : Vec Ideal S896x128 .f32)
    (x3 : Vec Ideal S128x128 .f32) (x4 x5 : Vec Ideal S1x128 .f32) (p : Fin 2000) (q : Fin 128) :
    k2_pay1 (F := Ideal) x0 x1 x2 x3 x4 x5 (ix2 p q)
      = Cert.Layer.entry (∑ k : Fin 896, x0 (ix2 p k) * x2 (ix2 k q)) (∑ k : Fin 128, x1 (ix2 p k) * x3 (ix2 k q))
          (x4 (ix2 (0 : Fin 1) q)) (x5 (ix2 (0 : Fin 1) q)) := by
  unfold k2_pay1 Cert.Layer.entry
  simp only [shapeCast_self]
  refine (maximumf_apply _ _ _).trans (congrArg₂ max ?_ rfl)
  refine (addf_apply _ _ _).trans (congrArg₂ (· + ·) ?_ (broadcastTo_1b_ab_apply (a := 2000) (b := 128) x5 _ p q))
  refine (addf_apply _ _ _).trans (congrArg₂ (· + ·) ?_ (broadcastTo_1b_ab_apply (a := 2000) (b := 128) x4 _ p q))
  refine (addf_apply _ _ _).trans (congrArg₂ (· + ·) ?_ ?_)
  · rw [dotWr_eq]
    exact PlainDot.matmul_apply_ix2 (M := 2000) (K := 896) (N := 128) none _ _ p q
  · rw [dotWl_eq]
    exact PlainDot.matmul_apply_ix2 (M := 2000) (K := 128) (N := 128) none _ _ p q

end Cert.KernelIdeal.Pay2

end
-- ==== Proof.Region2.lean ====
/-
  Launch 2 as one function of whole arrays: whatever the device's buffers hold when the launch is entered, its output array
  ends holding the dense layer of the six arrays its windows read.

  The grid has 15 points; point `t` reads rows `2000 t … 2000 t + 1999` of the aggregated messages and of the node features,
  the whole of the two weight matrices and of the two bias rows, and writes back rows `2000 t … 2000 t + 1999` of the output.
  An entry of the block point `t` writes back is therefore the layer's entry at the same row of the whole arrays, and the 15
  blocks cover the 30000 rows.
-/
import proofs.«118090_j45775761441170_1_alg».proof.Proof.Gen.KernelIdeal.Frame
import proofs.«118090_j45775761441170_1_alg».proof.Proof.Payload2
import proofs.«118090_j45775761441170_1_alg».proof.Proof.LayerSpec
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two row-tiled inputs and the output move with the point, the
    weights and the biases stay at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `x 0` of point `t`'s block of the aggregated messages is row `2000 t + x 0` of the array. -/
theorem blk0_apply (c : Dev nD) (t : Fin cfg2.N) (x : S2000x896.Idx) (k : S30000x896.Idx)
    (hk0 : (k 0).val = 2000 * t.val + (x 0).val) (hk1 : (k 1).val = (x 1).val) :
    (iblk2 V c 0 t : Vec Ideal S2000x896 .f32) x = (V c main_v64 : S30000x896.Idx → Elt Ideal .f32) k := by
  obtain ⟨h0, h1, -⟩ := idx_facts t
  unfold iblk2
  rw [View.read_apply]
  show V c main_v64 _ = V c main_v64 _
  refine congrArg (V c main_v64) ?_
  funext a
  apply Fin.ext
  match a with
  | ⟨0, _⟩ => show win2_0.index t 0 * 2000 + 1 * (x 0).val = (k 0).val; rw [h0, hk0]; omega
  | ⟨1, _⟩ => show win2_0.index t 1 * 896 + 1 * (x 1).val = (k 1).val; rw [h1, hk1]; omega

/-- Row `x 0` of point `t`'s block of the node features is row `2000 t + x 0` of the array. -/
theorem blk1_apply (c : Dev nD) (t : Fin cfg2.N) (x : S2000x128.Idx) (k : S30000x128.Idx)
    (hk0 : (k 0).val = 2000 * t.val + (x 0).val) (hk1 : (k 1).val = (x 1).val) :
    (iblk2 V c 1 t : Vec Ideal S2000x128 .f32) x = (V c main_v51 : S30000x128.Idx → Elt Ideal .f32) k := by
  obtain ⟨-, -, h0, h1, -⟩ := idx_facts t
  unfold iblk2
  rw [View.read_apply]
  show V c main_v51 _ = V c main_v51 _
  refine congrArg (V c main_v51) ?_
  funext a
  apply Fin.ext
  match a with
  | ⟨0, _⟩ => show win2_1.index t 0 * 2000 + 1 * (x 0).val = (k 0).val; rw [h0, hk0]; omega
  | ⟨1, _⟩ => show win2_1.index t 1 * 128 + 1 * (x 1).val = (k 1).val; rw [h1, hk1]; omega

/-- Every point's block of the relational weights is the whole matrix. -/
theorem blk2_apply (c : Dev nD) (t : Fin cfg2.N) (x : S896x128.Idx) :
    (iblk2 V c 2 t : Vec Ideal S896x128 .f32) x = (V c main_v72 : S896x128.Idx → Elt Ideal .f32) x := by
  obtain ⟨-, -, -, -, h0, h1, -⟩ := idx_facts t
  unfold iblk2
  rw [View.read_apply]
  show V c main_v72 _ = V c main_v72 _
  refine congrArg (V c main_v72) ?_
  funext a
  apply Fin.ext
  match a with
  | ⟨0, _⟩ => show win2_2.index t 0 * 896 + 1 * (x 0).val = (x 0).val; rw [h0]; omega
  | ⟨1, _⟩ => show win2_2.index t 1 * 128 + 1 * (x 1).val = (x 1).val; rw [h1]; omega

/-- Every point's block of the self-loop weights is the whole matrix. -/
theorem blk3_apply (c : Dev nD) (t : Fin cfg2.N) (x : S128x128.Idx) :
    (iblk2 V c 3 t : Vec Ideal S128x128 .f32) x = (V c main_v74 : S128x128.Idx → Elt Ideal .f32) x := by
  obtain ⟨-, -, -, -, -, -, h0, h1, -⟩ := idx_facts t
  unfold iblk2
  rw [View.read_apply]
  show V c main_v74 _ = V c main_v74 _
  refine congrArg (V c main_v74) ?_
  funext a
  apply Fin.ext
  match a with
  | ⟨0, _⟩ => show win2_3.index t 0 * 128 + 1 * (x 0).val = (x 0).val; rw [h0]; omega
  | ⟨1, _⟩ => show win2_3.index t 1 * 128 + 1 * (x 1).val = (x 1).val; rw [h1]; omega

/-- Every point's block of the first bias is the whole row. -/
theorem blk4_apply (c : Dev nD) (t : Fin cfg2.N) (x : S1x128.Idx) :
    (iblk2 V c 4 t : Vec Ideal S1x128 .f32) x = (V c main_v67 : S1x128.Idx → Elt Ideal .f32) x := by
  obtain ⟨-, -, -, -, -, -, -, -, h0, h1, -⟩ := idx_facts t
  unfold iblk2
  rw [View.read_apply]
  show V c main_v67 _ = V c main_v67 _
  refine congrArg (V c main_v67) ?_
  funext a
  apply Fin.ext
  match a with
  | ⟨0, _⟩ => show win2_4.index t 0 * 1 + 1 * (x 0).val = (x 0).val; rw [h0]; omega
  | ⟨1, _⟩ => show win2_4.index t 1 * 128 + 1 * (x 1).val = (x 1).val; rw [h1]; omega

/-- Every point's block of the second bias is the whole row. -/
theorem blk5_apply (c : Dev nD) (t : Fin cfg2.N) (x : S1x128.Idx) :
    (iblk2 V c 5 t : Vec Ideal S1x128 .f32) x = (V c main_v70 : S1x128.Idx → Elt Ideal .f32) x := by
  obtain ⟨-, -, -, -, -, -, -, -, -, -, h0, h1, -⟩ := idx_facts t
  unfold iblk2
  rw [View.read_apply]
  show V c main_v70 _ = V c main_v70 _
  refine congrArg (V c main_v70) ?_
  funext a
  apply Fin.ext
  match a with
  | ⟨0, _⟩ => show win2_5.index t 0 * 1 + 1 * (x 0).val = (x 0).val; rw [h0]; omega
  | ⟨1, _⟩ => show win2_5.index t 1 * 128 + 1 * (x 1).val = (x 1).val; rw [h1]; omega

/-- The layer of the six arrays as the launch finds them. -/
abbrev result (c : Dev nD) : S30000x128.Idx → EReal :=
  Cert.Layer.layer (V c main_v64) (V c main_v51) (V c main_v72) (V c main_v74) (V c main_v67) (V c main_v70)

/-- What point `t`'s body stores at row `p`, feature `q` of its block is the layer's entry at row `2000 t + p`. -/
theorem point_eq (c : Dev nD) (t : Fin cfg2.N) (p : Fin 2000) (q : Fin 128) (r : Fin 30000) (hr : r.val = 2000 * t.val + p.val) :
    k2_pay1 (F := Ideal) (iblk2 V c 0 t) (iblk2 V c 1 t) (iblk2 V c 2 t) (iblk2 V c 3 t) (iblk2 V c 4 t) (iblk2 V c 5 t) (ix2 p q)
      = result V c (ix2 r q) := by
  refine (Cert.KernelIdeal.Pay2.pay_apply (iblk2 V c 0 t) (iblk2 V c 1 t) (iblk2 V c 2 t) (iblk2 V c 3 t) (iblk2 V c 4 t) (iblk2 V c 5 t) p q).trans ?_
  refine Eq.trans ?_ (Cert.Layer.layer_ix2 (V c main_v64) (V c main_v51) (V c main_v72) (V c main_v74) (V c main_v67) (V c main_v70) r q).symm
  have e0 : ∀ k : Fin 896, (iblk2 V c 0 t : Vec Ideal S2000x896 .f32) (ix2 p k) = V c main_v64 (ix2 r k) :=
    fun k => blk0_apply V c t (ix2 p k) (ix2 r k) hr rfl
  have e1 : ∀ k : Fin 128, (iblk2 V c 1 t : Vec Ideal S2000x128 .f32) (ix2 p k) = V c main_v51 (ix2 r k) :=
    fun k => blk1_apply V c t (ix2 p k) (ix2 r k) hr rfl
  have e2 : ∀ k : Fin 896, (iblk2 V c 2 t : Vec Ideal S896x128 .f32) (ix2 k q) = V c main_v72 (ix2 k q) :=
    fun k => blk2_apply V c t (ix2 k q)
  have e3 : ∀ k : Fin 128, (iblk2 V c 3 t : Vec Ideal S128x128 .f32) (ix2 k q) = V c main_v74 (ix2 k q) :=
    fun k => blk3_apply V c t (ix2 k q)
  have e4 : (iblk2 V c 4 t : Vec Ideal S1x128 .f32) (ix2 (0 : Fin 1) q) = V c main_v67 (ix2 (0 : Fin 1) q) := blk4_apply V c t _
  have e5 : (iblk2 V c 5 t : Vec Ideal S1x128 .f32) (ix2 (0 : Fin 1) q) = V c main_v70 (ix2 (0 : Fin 1) q) := blk5_apply V c t _
  refine congr (congr (congr (congrArg Cert.Layer.entry ?_) ?_) e4) e5
  · exact Finset.sum_congr rfl fun k _ => congrArg₂ (· * ·) (e0 k) (e2 k)
  · exact Finset.sum_congr rfl fun k _ => congrArg₂ (· * ·) (e1 k) (e3 k)

/-- What point `t` writes back is block `t` of the layer of the six arrays. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz]
  simp only [View.ld_unit_zero (S := S2000x896) hz, View.ld_unit_zero (S := S2000x128) hz, View.ld_unit_zero (S := S896x128) hz,
    View.ld_unit_zero (S := S128x128) hz, View.ld_unit_zero (S := S1x128) hz]
  obtain ⟨-, -, -, -, -, -, -, -, -, -, -, -, h0, h1⟩ := idx_facts t
  funext j
  rw [View.read_apply]
  obtain ⟨p, q, rfl⟩ : ∃ (p : Fin 2000) (q : Fin 128), j = ix2 p q := ⟨j 0, j 1, eq_ix2 j⟩
  have hp : p.val < 2000 := p.isLt
  have ht : t.val < 15 := by have hN : cfg2.N = 15 := N_2; have := t.isLt; omega
  refine (point_eq V c t p q ⟨2000 * t.val + p.val, by omega⟩ rfl).trans ?_
  refine congrArg (result V c) ?_
  funext a
  apply Fin.ext
  match a with
  | ⟨0, _⟩ => show 2000 * t.val + p.val = win2_6.index t 0 * 2000 + 1 * p.val; rw [h0]; omega
  | ⟨1, _⟩ => show q.val = win2_6.index t 1 * 128 + 1 * q.val; rw [h1]; omega

/-- An index of the output array is in point `t`'s block iff each coordinate is in the block's range on its axis. -/
theorem mem_blk (t : Fin cfg2.N) (i : S30000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v75).slice (win2_6.rect t)).set ↔ _
  rw [View.set_slice_whole, Rect.mem_set_unit]
  exact Iff.rfl

/-- Row `r` of the output is in the block of point `r / 2000`. -/
theorem cover (i : S30000x128.Idx) : ∃ t : Fin cfg2.N, (cfg2.win 6).flush t = true ∧ i ∈ ((cfg2.win 6).blk t).view.set := by
  have hi0 : (i 0).val < 30000 := (i 0).isLt
  have hi1 : (i 1).val < 128 := (i 1).isLt
  have hN : cfg2.N = 15 := N_2
  refine ⟨⟨(i 0).val / 2000, by rw [hN]; omega⟩, flush2_6 _, ?_⟩
  rw [mem_blk]
  obtain ⟨-, -, -, -, -, -, -, -, -, -, -, -, h0, h1⟩ := idx_facts ⟨(i 0).val / 2000, by rw [hN]; omega⟩
  intro a
  match a with
  | ⟨0, _⟩ =>
    show win2_6.index ⟨(i 0).val / 2000, _⟩ 0 * 2000 ≤ (i 0).val ∧ (i 0).val < win2_6.index ⟨(i 0).val / 2000, _⟩ 0 * 2000 + 2000
    rw [h0]; show (i 0).val / 2000 * 2000 ≤ (i 0).val ∧ (i 0).val < (i 0).val / 2000 * 2000 + 2000; omega
  | ⟨1, _⟩ =>
    show win2_6.index ⟨(i 0).val / 2000, _⟩ 1 * 128 ≤ (i 1).val ∧ (i 1).val < win2_6.index ⟨(i 0).val / 2000, _⟩ 1 * 128 + 128
    rw [h1]; omega

/-- The output array after the launch is the layer of the six arrays as the launch found them. -/
theorem final (c : Dev nD) : (dat2 V c).arrAt 6 cfg2.N = result V c :=
  (dat2 V c).arrAt_eq_of_cover 6 (result V c) (fun t _ => flushed_eq V c t) cover

end Cert.KernelIdeal.Reg2

end
-- ==== Proof.Chain2.lean ====
/-
  The idealized kernel's buffers at the end of the program. The third stretch of host operations and the third launch leave
  the reference's third layer, the node features the program returns; the last stretch sums them per graph.
-/
import proofs.«118090_j45775761441170_1_alg».proof.Proof.Chain1
import proofs.«118090_j45775761441170_1_alg».proof.Proof.Region2
import Idealize.ShloMosaic.Lib.StableHlo.Run

set_option maxRecDepth 16384

noncomputable section

namespace Cert.KernelIdeal.Chain

open Cert.KernelIdeal Cert.KernelIdeal.Gen Cert.KernelIdeal.Facts₀ Cert.KernelIdeal.Facts Cert.Glue
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The buffers later stretches read again, before and after the third launch -/

theorem W5_main_arg1 : W5 m ρ c (Proc.devRef .tc main_arg1) = X1 m c := by
  refine Eq.trans ?_ (W4_main_arg1 m ρ c)
  dsimp only [W5, hostOps2]
  after_results_simp
  all_goals rfl

theorem W5_main_v2 : W5 m ρ c (Proc.devRef .tc main_v2) = segment (X2 m c) (X3 m c) := by
  refine Eq.trans ?_ (W4_main_v2 m ρ c)
  dsimp only [W5, hostOps2]
  after_results_simp
  all_goals rfl

theorem W5_main_v3 : W5 m ρ c (Proc.devRef .tc main_v3) = weightCol (X4 m c) := by
  refine Eq.trans ?_ (W4_main_v3 m ρ c)
  dsimp only [W5, hostOps2]
  after_results_simp
  all_goals rfl

theorem W5_main_arg5 : W5 m ρ c (Proc.devRef .tc main_arg5) = X5 m c := by
  refine Eq.trans ?_ (W4_main_arg5 m ρ c)
  dsimp only [W5, hostOps2]
  after_results_simp
  all_goals rfl

theorem W5_main_arg6 : W5 m ρ c (Proc.devRef .tc main_arg6) = X6 m c := by
  refine Eq.trans ?_ (W4_main_arg6 m ρ c)
  dsimp only [W5, hostOps2]
  after_results_simp
  all_goals rfl

theorem W5_main_arg7 : W5 m ρ c (Proc.devRef .tc main_arg7) = X7 m c := by
  refine Eq.trans ?_ (W4_main_arg7 m ρ c)
  dsimp only [W5, hostOps2]
  after_results_simp
  all_goals rfl

theorem W5_main_arg8 : W5 m ρ c (Proc.devRef .tc main_arg8) = X8 m c := by
  refine Eq.trans ?_ (W4_main_arg8 m ρ c)
  dsimp only [W5, hostOps2]
  after_results_simp
  all_goals rfl

theorem W5_main_arg9 : W5 m ρ c (Proc.devRef .tc main_arg9) = X9 m c := by
  refine Eq.trans ?_ (W4_main_arg9 m ρ c)
  dsimp only [W5, hostOps2]
  after_results_simp
  all_goals rfl

theorem W6_main_arg5 : W6 m ρ c (Proc.devRef .tc main_arg5) = X5 m c :=
  (W6_of_ne m ρ c main_arg5 (by decide)).trans (W5_main_arg5 m ρ c)

/-! ## What launch 2 finds -/

theorem W5_main_v51 : W5 m ρ c (Proc.devRef .tc main_v51) = feat2 (X0 m c) (X1 m c) (X2 m c) (X3 m c) (X4 m c) (X6 m c) (X7 m c) (X8 m c) (X9 m c) := by
  refine Eq.trans ?_ (W4_main_v51 m ρ c)
  dsimp only [W5, hostOps2]
  after_results_simp
  all_goals rfl

theorem W5_main_v64 : W5 m ρ c (Proc.devRef .tc main_v64) = aggregate (feat2 (X0 m c) (X1 m c) (X2 m c) (X3 m c) (X4 m c) (X6 m c) (X7 m c) (X8 m c) (X9 m c)) (X1 m c) (X2 m c) (X3 m c) (X4 m c) := by
  have e : W5 m ρ c (Proc.devRef .tc main_v64) = aggregateFrom (W4 m ρ c (Proc.devRef .tc main_v51)) (W4 m ρ c (Proc.devRef .tc main_arg1))
      (W4 m ρ c (Proc.devRef .tc main_v2)) (W4 m ρ c (Proc.devRef .tc main_v3)) := by
    dsimp only [W5, hostOps2]
    after_results_simp
    all_goals rfl
  rw [e, W4_main_v51, W4_main_arg1, W4_main_v2, W4_main_v3]
  all_goals rfl

theorem W5_main_v72 : W5 m ρ c (Proc.devRef .tc main_v72) = wr2 (X6 m c) := by
  have e : W5 m ρ c (Proc.devRef .tc main_v72) = wr2 (W4 m ρ c (Proc.devRef .tc main_arg6)) := by
    dsimp only [W5, hostOps2]
    after_results_simp
    all_goals rfl
  rw [e, W4_main_arg6]

theorem W5_main_v74 : W5 m ρ c (Proc.devRef .tc main_v74) = wl2 (X8 m c) := by
  have e : W5 m ρ c (Proc.devRef .tc main_v74) = wl2 (W4 m ρ c (Proc.devRef .tc main_arg8)) := by
    dsimp only [W5, hostOps2]
    after_results_simp
    all_goals rfl
  rw [e, W4_main_arg8]

theorem W5_main_v67 : W5 m ρ c (Proc.devRef .tc main_v67) = shapeCast S1x128 (bias2 (X7 m c)) Facts₀.shapeCasts_S128_S1x128 := by
  have e : W5 m ρ c (Proc.devRef .tc main_v67) = shapeCast S1x128 (bias2 (W4 m ρ c (Proc.devRef .tc main_arg7))) Facts₀.shapeCasts_S128_S1x128 := by
    dsimp only [W5, hostOps2]
    after_results_simp
    all_goals rfl
  rw [e, W4_main_arg7]

theorem W5_main_v70 : W5 m ρ c (Proc.devRef .tc main_v70) = shapeCast S1x128 (bias2 (X9 m c)) Facts₀.shapeCasts_S128_S1x128 := by
  have e : W5 m ρ c (Proc.devRef .tc main_v70) = shapeCast S1x128 (bias2 (W4 m ρ c (Proc.devRef .tc main_arg9))) Facts₀.shapeCasts_S128_S1x128 := by
    dsimp only [W5, hostOps2]
    after_results_simp
    all_goals rfl
  rw [e, W4_main_arg9]

/-! ## The layer -/

/-- Launch 2 leaves the reference's layer of the arguments in its output array. -/
theorem W6_main_v75 : W6 m ρ c (Proc.devRef .tc main_v75) = feat3 (X0 m c) (X1 m c) (X2 m c) (X3 m c) (X4 m c) (X6 m c) (X7 m c) (X8 m c) (X9 m c) := by
  refine ((W6_arr m ρ c 6).trans (Cert.KernelIdeal.Reg2.final (V5 m ρ) c)).trans ?_
  show Cert.Layer.layer (W5 m ρ c (Proc.devRef .tc main_v64)) (W5 m ρ c (Proc.devRef .tc main_v51)) (W5 m ρ c (Proc.devRef .tc main_v72))
    (W5 m ρ c (Proc.devRef .tc main_v74)) (W5 m ρ c (Proc.devRef .tc main_v67)) (W5 m ρ c (Proc.devRef .tc main_v70)) = _
  rw [W5_main_v64, W5_main_v51, W5_main_v72, W5_main_v74, W5_main_v67, W5_main_v70]
  exact denseLayer_eq _ _ _ _ _ _ _

/-! ## The two results -/

/-- The node features the program returns. -/
theorem W7_main_v75 : W7 m ρ c (Proc.devRef .tc main_v75) = feat3 (X0 m c) (X1 m c) (X2 m c) (X3 m c) (X4 m c) (X6 m c) (X7 m c) (X8 m c) (X9 m c) := by
  refine Eq.trans ?_ (W6_main_v75 m ρ c)
  dsimp only [W7, hostOps3]
  after_results_simp
  all_goals rfl

/-- The graph features the program returns. -/
theorem W7_main_v78 : W7 m ρ c (Proc.devRef .tc main_v78) = readout (feat3 (X0 m c) (X1 m c) (X2 m c) (X3 m c) (X4 m c) (X6 m c) (X7 m c) (X8 m c) (X9 m c)) (X5 m c) := by
  have e : W7 m ρ c (Proc.devRef .tc main_v78) = readout (W6 m ρ c (Proc.devRef .tc main_v75)) (W6 m ρ c (Proc.devRef .tc main_arg5)) := by
    dsimp only [W7, hostOps3]
    after_results_simp
    all_goals rfl
  rw [e, W6_main_v75, W6_main_arg5]

end Cert.KernelIdeal.Chain

end
-- ==== Proof.RefValue.lean ====
/-
  The reference's two results are the composition of the whole-array functions: each stage of the reference's run is, by
  its definition, the host operation applied to the earlier stages, and the stages up to each layer's output spell the
  aggregation and the dense layer of the previous layer's output.
-/
import proofs.«118090_j45775761441170_1_alg».proof.Proof.Gen.ReferenceIdeal.Read
import proofs.«118090_j45775761441170_1_alg».proof.Proof.Glue

noncomputable section

namespace Cert.ReferenceIdeal.RefValue

open Cert.ReferenceIdeal Cert.ReferenceIdeal.Read Cert.Glue Idealize.ShloMosaic

variable (x0 : FArr S30000x128) (x1 x2 x3 : IArr S600000) (x4 : FArr S600000) (x5 : IArr S30000) (x6 : FArr S3x896x128)
  (x7 : FArr S3x128) (x8 : FArr S3x128x128) (x9 : FArr S3x128)

/-- The first layer's output. -/
theorem layer1_eq : val_main_v34 (F := Ideal) x0 x1 x2 x3 x4 x6 x7 x8 x9 = feat1 x0 x1 x2 x3 x4 x6 x7 x8 x9 := rfl

/-- The second layer's output. -/
theorem layer2_eq : val_main_v65 (F := Ideal) x0 x1 x2 x3 x4 x6 x7 x8 x9 = feat2 x0 x1 x2 x3 x4 x6 x7 x8 x9 := by
  show denseLayer (aggregate (val_main_v34 (F := Ideal) x0 x1 x2 x3 x4 x6 x7 x8 x9) x1 x2 x3 x4) (val_main_v34 (F := Ideal) x0 x1 x2 x3 x4 x6 x7 x8 x9)
    (wr1 x6) (wl1 x8) (bias1 x7) (bias1 x9) = _
  rw [layer1_eq]
  rfl

/-- The third layer's output: the node features the reference returns. -/
theorem layer3_eq : val_main_v96 (F := Ideal) x0 x1 x2 x3 x4 x6 x7 x8 x9 = feat3 x0 x1 x2 x3 x4 x6 x7 x8 x9 := by
  show denseLayer (aggregate (val_main_v65 (F := Ideal) x0 x1 x2 x3 x4 x6 x7 x8 x9) x1 x2 x3 x4) (val_main_v65 (F := Ideal) x0 x1 x2 x3 x4 x6 x7 x8 x9)
    (wr2 x6) (wl2 x8) (bias2 x7) (bias2 x9) = _
  rw [layer2_eq]
  rfl

/-- The graph features the reference returns. -/
theorem readout_eq : val_main_v99 (F := Ideal) x0 x1 x2 x3 x4 x5 x6 x7 x8 x9 = readout (feat3 x0 x1 x2 x3 x4 x6 x7 x8 x9) x5 := by
  show readout (val_main_v96 (F := Ideal) x0 x1 x2 x3 x4 x6 x7 x8 x9) x5 = _
  rw [layer3_eq]

end Cert.ReferenceIdeal.RefValue

end
-- ==== Proof.lean ====
/-
  A three-layer relational graph convolution: each layer aggregates, for every node and each of the seven relations, the
  weighted features of the node's in-neighbours (a gather along the edges, a product with the edge weight and a scatter-add by
  segment, all host operations, the same in both programs), multiplies the aggregate and the node's own features by the layer's
  two weight matrices, adds the two biases and clamps at zero; the node features after the third layer are summed per graph.

  The kernel computes the dense part of each layer in a launch over 15 row tiles of 2000 nodes, with the two products on the
  matrix unit from operands rounded to a narrower float format; the reference computes it with host matrix products. Over
  the extended reals the change of format is the identity and each matrix product is the plain sum over the contracted
  coordinate, so every entry of a launch's output block is the reference's entry up to the order in which the two products
  and the two biases are added, and addition of extended reals is commutative and associative: no finiteness is used.

  The proof reads the kernel's run at every buffer (KernelRun), shows that each launch leaves the layer of the six arrays it
  finds (Payload, Region), follows the host operations between the launches through the program (Chain), reads the
  reference's generated run stage by stage as the same composition (RefValue), and joins the two layer forms entry by entry
  (LayerSpec, LayerBridge). The frames of the two kernel programs are the generated ones; the reference's frame is its run
  with the results dropped; no operation was rewritten by the idealization, so nothing is to be preserved.
-/
import proofs.«118090_j45775761441170_1_alg».proof.Defs
import proofs.«118090_j45775761441170_1_alg».proof.Proof.Gen.Kernel
import proofs.«118090_j45775761441170_1_alg».proof.Proof.Gen.Kernel.Skeleton
import proofs.«118090_j45775761441170_1_alg».proof.Proof.Gen.Kernel.Launch
import proofs.«118090_j45775761441170_1_alg».proof.Proof.Gen.Kernel.Points
import proofs.«118090_j45775761441170_1_alg».proof.Proof.Gen.Kernel.Frame
import proofs.«118090_j45775761441170_1_alg».proof.Proof.Gen.KernelIdeal
import proofs.«118090_j45775761441170_1_alg».proof.Proof.Gen.KernelIdeal.Skeleton
import proofs.«118090_j45775761441170_1_alg».proof.Proof.Gen.KernelIdeal.Launch
import proofs.«118090_j45775761441170_1_alg».proof.Proof.Gen.KernelIdeal.Points
import proofs.«118090_j45775761441170_1_alg».proof.Proof.Gen.KernelIdeal.Frame
import proofs.«118090_j45775761441170_1_alg».proof.Proof.Gen.ReferenceIdeal
import proofs.«118090_j45775761441170_1_alg».proof.Proof.Gen.ReferenceIdeal.Run
import proofs.«118090_j45775761441170_1_alg».proof.Proof.Gen.ReferenceIdeal.Read
import proofs.«118090_j45775761441170_1_alg».proof.Proof.Gen.Pre_finite_inputs
import proofs.«118090_j45775761441170_1_alg».proof.Proof.KernelRun
import proofs.«118090_j45775761441170_1_alg».proof.Proof.Chain2
import proofs.«118090_j45775761441170_1_alg».proof.Proof.RefValue
import Idealize.ShloMosaic.Adequacy
import Idealize.ShloMosaic.Init

noncomputable section

namespace Cert.Proof

open Idealize.ShloMosaic Idealize.SL.Sem Cert.Glue

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the graph features at the per-graph sums of the third layer's output and the node features at that
    output, as functions of the argument arrays. -/
theorem algebraic : Cert.algebraic_KernelIdeal_ReferenceIdeal := by
  intro m ρ m' ρ' _ hagree
  refine ⟨fun c => readout (feat3 (Cert.KernelIdeal.Chain.X0 m c) (Cert.KernelIdeal.Chain.X1 m c) (Cert.KernelIdeal.Chain.X2 m c) (Cert.KernelIdeal.Chain.X3 m c) (Cert.KernelIdeal.Chain.X4 m c) (Cert.KernelIdeal.Chain.X6 m c) (Cert.KernelIdeal.Chain.X7 m c) (Cert.KernelIdeal.Chain.X8 m c) (Cert.KernelIdeal.Chain.X9 m c)) (Cert.KernelIdeal.Chain.X5 m c),
    fun c => feat3 (Cert.KernelIdeal.Chain.X0 m c) (Cert.KernelIdeal.Chain.X1 m c) (Cert.KernelIdeal.Chain.X2 m c) (Cert.KernelIdeal.Chain.X3 m c) (Cert.KernelIdeal.Chain.X4 m c) (Cert.KernelIdeal.Chain.X6 m c) (Cert.KernelIdeal.Chain.X7 m c) (Cert.KernelIdeal.Chain.X8 m c) (Cert.KernelIdeal.Chain.X9 m c), ?_, ?_⟩
  · refine (θ_run Cert.KernelIdeal.defs _ _).mono (fun r h c => ?_) (Cert.KernelIdeal.Named.run_results (F := Ideal) m ρ)
    obtain ⟨h78, h75, hrest⟩ := h c
    exact ⟨h78.trans (Cert.KernelIdeal.Chain.W7_main_v78 m ρ c), h75.trans (Cert.KernelIdeal.Chain.W7_main_v75 m ρ c), hrest⟩
  · refine (θ_run Cert.ReferenceIdeal.defs _ _).mono (fun r h c => ?_) (Cert.ReferenceIdeal.Value.run (F := Ideal) m' ρ')
    obtain ⟨h99, h96, hrest⟩ := h c
    obtain ⟨e0, e1, e2, e3, e4, e5, e6, e7, e8, e9⟩ := hagree c
    refine ⟨h99.trans ?_, h96.trans ?_, hrest⟩
    · rw [Cert.ReferenceIdeal.Read.val_main_v99_eq, e0, e1, e2, e3, e4, e5, e6, e7, e8, e9]
      exact Cert.ReferenceIdeal.RefValue.readout_eq _ _ _ _ _ _ _ _ _ _
    · rw [Cert.ReferenceIdeal.Read.val_main_v96_eq, e0, e1, e2, e3, e4, e6, e7, e8, e9]
      exact Cert.ReferenceIdeal.RefValue.layer3_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
